-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x39 : Shape := ⟨2, ![16384, 39]⟩
abbrev S9984x128 : Shape := ⟨2, ![9984, 128]⟩
abbrev S3900000x8 : Shape := ⟨2, ![3900000, 8]⟩
abbrev S3900000 : Shape := ⟨1, ![3900000]⟩
abbrev S1 : Shape := ⟨1, ![1]⟩
abbrev S_ : Shape := ⟨0, ![]⟩

class Facts : Prop where
  bcast_S_S9984x128 : S_.BroadcastsInDim S9984x128 (![] : Fin 0 → Fin S9984x128.rank)
  reducesTo_S9984x128_S_d0_1 : S9984x128.ReducesTo [0, 1] S_
  h_S_ : 0 < S_.numel
  bcast_S_S3900000 : S_.BroadcastsInDim S3900000 (![] : Fin 0 → Fin S3900000.rank)
  reducesTo_S3900000_S_d0 : S3900000.ReducesTo [0] S_
  bcast_S_S1 : S_.BroadcastsInDim S1 (![] : Fin 0 → Fin S1.rank)
  reducesTo_S1_S_d0 : S1.ReducesTo [0] S_

variable [Facts]

def fn {F : FTy → Type} [FloatOps F] (main_arg0 : IVec S16384x39 32) (main_arg1 : FVec F S9984x128 .f32) (main_arg2 : IVec S3900000x8 32) (main_arg3 : FVec F S3900000 .f32) (main_arg4 : FVec F S1 .f32) : IVec S_ 1 :=
  let main_v0 : FVec F S9984x128 .f32 := Host.absf main_arg1
  let main_cst : FVec F S_ .f32 := constant S_ .f32 0x7F800000#32
  let main_v1 : FVec F S9984x128 .f32 := broadcastInDim S9984x128 ![] bcast_S_S9984x128 main_cst
  let main_v2 : IVec S9984x128 1 := cmpf .olt main_v0 main_v1
  let main_c : IVec S_ 1 := constantI S_ 1 1#1
  let main_v3 : IVec S_ 1 := (fun x v => Host.reduce IntOp.andi x v reducesTo_S9984x128_S_d0_1 h_S_) main_v2 main_c
  let main_v4 : FVec F S3900000 .f32 := Host.absf main_arg3
  let main_cst_0 : FVec F S_ .f32 := constant S_ .f32 0x7F800000#32
  let main_v5 : FVec F S3900000 .f32 := broadcastInDim S3900000 ![] bcast_S_S3900000 main_cst_0
  let main_v6 : IVec S3900000 1 := cmpf .olt main_v4 main_v5
  let main_c_1 : IVec S_ 1 := constantI S_ 1 1#1
  let main_v7 : IVec S_ 1 := (fun x v => Host.reduce IntOp.andi x v reducesTo_S3900000_S_d0 h_S_) main_v6 main_c_1
  let main_v8 : IVec S_ 1 := andi main_v3 main_v7
  let main_v9 : FVec F S1 .f32 := Host.absf main_arg4
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S16384x39 : Shape := ⟨2, ![16384, 39]⟩
abbrev S9984x128 : Shape := ⟨2, ![9984, 128]⟩
abbrev S3900000x8 : Shape := ⟨2, ![3900000, 8]⟩
abbrev S3900000 : Shape := ⟨1, ![3900000]⟩
abbrev S1 : Shape := ⟨1, ![1]⟩
abbrev S39 : Shape := ⟨1, ![39]⟩
abbrev S_ : Shape := ⟨0, ![]⟩
abbrev S1x39 : Shape := ⟨2, ![1, 39]⟩
abbrev S39x16384 : Shape := ⟨2, ![39, 16384]⟩
abbrev S39x16384x1 : Shape := ⟨3, ![39, 16384, 1]⟩
abbrev S39x16384x8 : Shape := ⟨3, ![39, 16384, 8]⟩
abbrev S39x1x1 : Shape := ⟨3, ![39, 1, 1]⟩
abbrev S9984x8x16 : Shape := ⟨3, ![9984, 8, 16]⟩
abbrev S8 : Shape := ⟨1, ![8]⟩
abbrev S1x1x8 : Shape := ⟨3, ![1, 1, 8]⟩
abbrev S39x16384x8x1 : Shape := ⟨4, ![39, 16384, 8, 1]⟩
abbrev S39x16384x8x2 : Shape := ⟨4, ![39, 16384, 8, 2]⟩
abbrev S39x16384x8x16 : Shape := ⟨4, ![39, 16384, 8, 16]⟩
abbrev S39x16384x128 : Shape := ⟨3, ![39, 16384, 128]⟩
abbrev S16384x39x1 : Shape := ⟨3, ![16384, 39, 1]⟩
abbrev S16384 : Shape := ⟨1, ![16384]⟩
abbrev S39x1024x128 : Shape := ⟨3, ![39, 1024, 128]⟩
abbrev S1024x39 : Shape := ⟨2, ![1024, 39]⟩
abbrev S1024 : Shape := ⟨1, ![1024]⟩
abbrev S1024x128 : Shape := ⟨2, ![1024, 128]⟩
abbrev S1x1024x128 : Shape := ⟨3, ![1, 1024, 128]⟩

abbrev nBuf : Space → Nat
  | .hbm => 66
  | .vmem => 6
  | .smem => 0
  | _ => 0

abbrev bufTy : (tb : Table) → Fin (tcTables nBuf tb) → BufTy
  | .hbm, ⟨0, _⟩ => ⟨S16384x39, .i32⟩
  | .hbm, ⟨1, _⟩ => ⟨S9984x128, .f32⟩
  | .hbm, ⟨2, _⟩ => ⟨S3900000x8, .i32⟩
  | .hbm, ⟨3, _⟩ => ⟨S3900000, .f32⟩
  | .hbm, ⟨4, _⟩ => ⟨S1, .f32⟩
  | .hbm, ⟨5, _⟩ => ⟨S39, .i32⟩
  | .hbm, ⟨6, _⟩ => ⟨S_, .i32⟩
  | .hbm, ⟨7, _⟩ => ⟨S39, .i32⟩
  | .hbm, ⟨8, _⟩ => ⟨S39, .i32⟩
  | .hbm, ⟨9, _⟩ => ⟨S1x39, .i32⟩
  | .hbm, ⟨10, _⟩ => ⟨S16384x39, .i32⟩
  | .hbm, ⟨11, _⟩ => ⟨S16384x39, .i32⟩
  | .hbm, ⟨12, _⟩ => ⟨S39x16384, .i32⟩
  | .hbm, ⟨13, _⟩ => ⟨S_, .i32⟩
  | .hbm, ⟨14, _⟩ => ⟨S39x16384, .i32⟩
  | .hbm, ⟨15, _⟩ => ⟨S39x16384, .i1⟩
  | .hbm, ⟨16, _⟩ => ⟨S_, .i32⟩
  | .hbm, ⟨17, _⟩ => ⟨S39x16384, .i32⟩
  | .hbm, ⟨18, _⟩ => ⟨S39x16384, .i32⟩
  | .hbm, ⟨19, _⟩ => ⟨S39x16384, .i32⟩
  | .hbm, ⟨20, _⟩ => ⟨S39x16384x1, .i32⟩
  | .hbm, ⟨21, _⟩ => ⟨S39x16384x8, .i32⟩
  | .hbm, ⟨22, _⟩ => ⟨S39, .i32⟩
  | .hbm, ⟨23, _⟩ => ⟨S_, .i32⟩
  | .hbm, ⟨24, _⟩ => ⟨S39, .i32⟩
  | .hbm, ⟨25, _⟩ => ⟨S39, .i32⟩
  | .hbm, ⟨26, _⟩ => ⟨S39x1x1, .i32⟩
  | .hbm, ⟨27, _⟩ => ⟨S39x16384x8, .i32⟩
  | .hbm, ⟨28, _⟩ => ⟨S39x16384x8, .i32⟩
  | .hbm, ⟨29, _⟩ => ⟨S9984x8x16, .f32⟩
  | .hbm, ⟨30, _⟩ => ⟨S8, .i32⟩
  | .hbm, ⟨31, _⟩ => ⟨S1x1x8, .i32⟩
  | .hbm, ⟨32, _⟩ => ⟨S_, .i32⟩
  | .hbm, ⟨33, _⟩ => ⟨S39x16384x8, .i32⟩
  | .hbm, ⟨34, _⟩ => ⟨S39x16384x8, .i1⟩
  | .hbm, ⟨35, _⟩ => ⟨S_, .i32⟩
  | .hbm, ⟨36, _⟩ => ⟨S39x16384x8, .i32⟩
  | .hbm, ⟨37, _⟩ => ⟨S39x16384x8, .i32⟩
  | .hbm, ⟨38, _⟩ => ⟨S39x16384x8, .i32⟩
  | .hbm, ⟨39, _⟩ => ⟨S_, .i32⟩
  | .hbm, ⟨40, _⟩ => ⟨S1x1x8, .i32⟩
  | .hbm, ⟨41, _⟩ => ⟨S1x1x8, .i1⟩
  | .hbm, ⟨42, _⟩ => ⟨S_, .i32⟩
  | .hbm, ⟨43, _⟩ => ⟨S1x1x8, .i32⟩
  | .hbm, ⟨44, _⟩ => ⟨S1x1x8, .i32⟩
  | .hbm, ⟨45, _⟩ => ⟨S1x1x8, .i32⟩
  | .hbm, ⟨46, _⟩ => ⟨S39x16384x8, .i32⟩
  | .hbm, ⟨47, _⟩ => ⟨S39x16384x8x1, .i32⟩
  | .hbm, ⟨48, _⟩ => ⟨S39x16384x8x1, .i32⟩
  | .hbm, ⟨49, _⟩ => ⟨S39x16384x8x2, .i32⟩
  | .hbm, ⟨50, _⟩ => ⟨S39x16384x8x16, .f32⟩
  | .hbm, ⟨51, _⟩ => ⟨S39x16384x128, .f32⟩
  | .hbm, ⟨52, _⟩ => ⟨S39x16384x128, .bf16⟩
  | .hbm, ⟨53, _⟩ => ⟨S_, .i32⟩
  | .hbm, ⟨54, _⟩ => ⟨S16384x39, .i32⟩
  | .hbm, ⟨55, _⟩ => ⟨S16384x39, .i1⟩
  | .hbm, ⟨56, _⟩ => ⟨S_, .i32⟩
  | .hbm, ⟨57, _⟩ => ⟨S16384x39, .i32⟩
  | .hbm, ⟨58, _⟩ => ⟨S16384x39, .i32⟩
  | .hbm, ⟨59, _⟩ => ⟨S16384x39, .i32⟩
  | .hbm, ⟨60, _⟩ => ⟨S16384x39x1, .i32⟩
  | .hbm, ⟨61, _⟩ => ⟨S16384x39, .f32⟩
  | .hbm, ⟨62, _⟩ => ⟨S16384, .f32⟩
  | .hbm, ⟨63, _⟩ => ⟨S_, .f32⟩
  | .hbm, ⟨64, _⟩ => ⟨S16384, .f32⟩
  | .hbm, ⟨65, _⟩ => ⟨S16384, .f32⟩
  | .local _ .vmem, ⟨0, _⟩ => ⟨S39x1024x128, .bf16⟩
  | .local _ .vmem, ⟨1, _⟩ => ⟨S39x1024x128, .bf16⟩
  | .local _ .vmem, ⟨2, _⟩ => ⟨S1024x39, .f32⟩
  | .local _ .vmem, ⟨3, _⟩ => ⟨S1024x39, .f32⟩
  | .local _ .vmem, ⟨4, _⟩ => ⟨S1024, .f32⟩
  | .local _ .vmem, ⟨5, _⟩ => ⟨S1024, .f32⟩
  | _, _ => ⟨S16384x39, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_c_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_7 : Ref sig .tc := ⟨.hbm, 53, rfl⟩
abbrev main_v40 : Ref sig .tc := ⟨.hbm, 54, rfl⟩
abbrev main_v41 : Ref sig .tc := ⟨.hbm, 55, rfl⟩
abbrev main_c_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S39x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x39 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S39 : S_.BroadcastsInDim S39 (![] : Fin 0 → Fin S39.rank)
  bcast_S39_S1x39_1 : S39.BroadcastsInDim S1x39 (![1] : Fin 1 → Fin S1x39.rank)
  bcast_S1x39_S16384x39_0_1 : S1x39.BroadcastsInDim S16384x39 (![0, 1] : Fin 2 → Fin S16384x39.rank)
  transposes_S16384x39_S39x16384_1_0 : S16384x39.Transposes [1, 0] S39x16384
  bcast_S_S39x16384 : S_.BroadcastsInDim S39x16384 (![] : Fin 0 → Fin S39x16384.rank)
  bcast_S39x16384_S39x16384x1_0_1 : S39x16384.BroadcastsInDim S39x16384x1 (![0, 1] : Fin 2 → Fin S39x16384x1.rank)
  bcast_S39_S39x1x1_0 : S39.BroadcastsInDim S39x1x1 (![0] : Fin 1 → Fin S39x1x1.rank)
  bcast_S39x1x1_S39x16384x8_0_1_2 : S39x1x1.BroadcastsInDim S39x16384x8 (![0, 1, 2] : Fin 3 → Fin S39x16384x8.rank)
  shapeCasts_S9984x128_S9984x8x16 : S9984x128.ShapeCasts S9984x8x16
  bcast_S8_S1x1x8_2 : S8.BroadcastsInDim S1x1x8 (![2] : Fin 1 → Fin S1x1x8.rank)
  bcast_S_S39x16384x8 : S_.BroadcastsInDim S39x16384x8 (![] : Fin 0 → Fin S39x16384x8.rank)
  bcast_S_S1x1x8 : S_.BroadcastsInDim S1x1x8 (![] : Fin 0 → Fin S1x1x8.rank)
  bcast_S1x1x8_S39x16384x8_0_1_2 : S1x1x8.BroadcastsInDim S39x16384x8 (![0, 1, 2] : Fin 3 → Fin S39x16384x8.rank)
  bcast_S39x16384x8_S39x16384x8x1_0_1_2 : S39x16384x8.BroadcastsInDim S39x16384x8x1 (![0, 1, 2] : Fin 3 → Fin S39x16384x8x1.rank)
  concatenates_S39x16384x8x1_S39x16384x8x1_S39x16384x8x2_d3 : Shape.Concatenates [S39x16384x8x1, S39x16384x8x1] S39x16384x8x2 3
  shapeCasts_S39x16384x8x16_S39x16384x128 : S39x16384x8x16.ShapeCasts S39x16384x128
  bitsLt_bf16_f32 : FTy.bits .bf16 < FTy.bits .f32
  bcast_S_S16384x39 : S_.BroadcastsInDim S16384x39 (![] : Fin 0 → Fin S16384x39.rank)
  bcast_S16384x39_S16384x39x1_0_1 : S16384x39.BroadcastsInDim S16384x39x1 (![0, 1] : Fin 2 → Fin S16384x39x1.rank)
  inb_S39x1024x128_S1x1024x128_0_0_0 : ∀ a, (![0, 0, 0] : Fin 3 → Nat) a + S1x1024x128.size a ≤ S39x1024x128.size a
  h_S1x1024x128 : 0 < S1x1024x128.numel
  shapeCasts_S1x1024x128_S1024x128 : S1x1024x128.ShapeCasts S1024x128
  inb_S39x1024x128_S1x1024x128_1_0_0 : ∀ a, (![1, 0, 0] : Fin 3 → Nat) a + S1x1024x128.size a ≤ S39x1024x128.size a
  inb_S39x1024x128_S1x1024x128_2_0_0 : ∀ a, (![2, 0, 0] : Fin 3 → Nat) a + S1x1024x128.size a ≤ S39x1024x128.size a
  inb_S39x1024x128_S1x1024x128_3_0_0 : ∀ a, (![3, 0, 0] : Fin 3 → Nat) a + S1x1024x128.size a ≤ S39x1024x128.size a
  inb_S39x1024x128_S1x1024x128_4_0_0 : ∀ a, (![4, 0, 0] : Fin 3 → Nat) a + S1x1024x128.size a ≤ S39x1024x128.size a
  inb_S39x1024x128_S1x1024x128_5_0_0 : ∀ a, (![5, 0, 0] : Fin 3 → Nat) a + S1x1024x128.size a ≤ S39x1024x128.size a
  inb_S39x1024x128_S1x1024x128_6_0_0 : ∀ a, (![6, 0, 0] : Fin 3 → Nat) a + S1x1024x128.size a ≤ S39x1024x128.size a
  inb_S39x1024x128_S1x1024x128_7_0_0 : ∀ a, (![7, 0, 0] : Fin 3 → Nat) a + S1x1024x128.size a ≤ S39x1024x128.size a
  inb_S39x1024x128_S1x1024x128_8_0_0 : ∀ a, (![8, 0, 0] : Fin 3 → Nat) a + S1x1024x128.size a ≤ S39x1024x128.size a
  inb_S39x1024x128_S1x1024x128_9_0_0 : ∀ a, (![9, 0, 0] : Fin 3 → Nat) a + S1x1024x128.size a ≤ S39x1024x128.size a
  inb_S39x1024x128_S1x1024x128_10_0_0 : ∀ a, (![10, 0, 0] : Fin 3 → Nat) a + S1x1024x128.size a ≤ S39x1024x128.size a
  inb_S39x1024x128_S1x1024x128_11_0_0 : ∀ a, (![11, 0, 0] : Fin 3 → Nat) a + S1x1024x128.size a ≤ S39x1024x128.size a
  inb_S39x1024x128_S1x1024x128_12_0_0 : ∀ a, (![12, 0, 0] : Fin 3 → Nat) a + S1x1024x128.size a ≤ S39x1024x128.size a
  inb_S39x1024x128_S1x1024x128_13_0_0 : ∀ a, (![13, 0, 0] : Fin 3 → Nat) a + S1x1024x128.size a ≤ S39x1024x128.size a
  inb_S39x1024x128_S1x1024x128_14_0_0 : ∀ a, (![14, 0, 0] : Fin 3 → Nat) a + S1x1024x128.size a ≤ S39x1024x128.size a
  inb_S39x1024x128_S1x1024x128_15_0_0 : ∀ a, (![15, 0, 0] : Fin 3 → Nat) a + S1x1024x128.size a ≤ S39x1024x128.size a
  inb_S39x1024x128_S1x1024x128_16_0_0 : ∀ a, (![16, 0, 0] : Fin 3 → Nat) a + S1x1024x128.size a ≤ S39x1024x128.size a
  inb_S39x1024x128_S1x1024x128_17_0_0 : ∀ a, (![17, 0, 0] : Fin 3 → Nat) a + S1x1024x128.size a ≤ S39x1024x128.size a
  inb_S39x1024x128_S1x1024x128_18_0_0 : ∀ a, (![18, 0, 0] : Fin 3 → Nat) a + S1x1024x128.size a ≤ S39x1024x128.size a
  inb_S39x1024x128_S1x1024x128_19_0_0 : ∀ a, (![19, 0, 0] : Fin 3 → Nat) a + S1x1024x128.size a ≤ S39x1024x128.size a
  inb_S39x1024x128_S1x1024x128_20_0_0 : ∀ a, (![20, 0, 0] : Fin 3 → Nat) a + S1x1024x128.size a ≤ S39x1024x128.size a
  inb_S39x1024x128_S1x1024x128_21_0_0 : ∀ a, (![21, 0, 0] : Fin 3 → Nat) a + S1x1024x128.size a ≤ S39x1024x128.size a
  inb_S39x1024x128_S1x1024x128_22_0_0 : ∀ a, (![22, 0, 0] : Fin 3 → Nat) a + S1x1024x128.size a ≤ S39x1024x128.size a
  inb_S39x1024x128_S1x1024x128_23_0_0 : ∀ a, (![23, 0, 0] : Fin 3 → Nat) a + S1x1024x128.size a ≤ S39x1024x128.size a
  inb_S39x1024x128_S1x1024x128_24_0_0 : ∀ a, (![24, 0, 0] : Fin 3 → Nat) a + S1x1024x128.size a ≤ S39x1024x128.size a
  inb_S39x1024x128_S1x1024x128_25_0_0 : ∀ a, (![25, 0, 0] : Fin 3 → Nat) a + S1x1024x128.size a ≤ S39x1024x128.size a
  inb_S39x1024x128_S1x1024x128_26_0_0 : ∀ a, (![26, 0, 0] : Fin 3 → Nat) a + S1x1024x128.size a ≤ S39x1024x128.size a
  inb_S39x1024x128_S1x1024x128_27_0_0 : ∀ a, (![27, 0, 0] : Fin 3 → Nat) a + S1x1024x128.size a ≤ S39x1024x128.size a
  inb_S39x1024x128_S1x1024x128_28_0_0 : ∀ a, (![28, 0, 0] : Fin 3 → Nat) a + S1x1024x128.size a ≤ S39x1024x128.size a
  inb_S39x1024x128_S1x1024x128_29_0_0 : ∀ a, (![29, 0, 0] : Fin 3 → Nat) a + S1x1024x128.size a ≤ S39x1024x128.size a
  inb_S39x1024x128_S1x1024x128_30_0_0 : ∀ a, (![30, 0, 0] : Fin 3 → Nat) a + S1x1024x128.size a ≤ S39x1024x128.size a
  inb_S39x1024x128_S1x1024x128_31_0_0 : ∀ a, (![31, 0, 0] : Fin 3 → Nat) a + S1x1024x128.size a ≤ S39x1024x128.size a
  inb_S39x1024x128_S1x1024x128_32_0_0 : ∀ a, (![32, 0, 0] : Fin 3 → Nat) a + S1x1024x128.size a ≤ S39x1024x128.size a
  inb_S39x1024x128_S1x1024x128_33_0_0 : ∀ a, (![33, 0, 0] : Fin 3 → Nat) a + S1x1024x128.size a ≤ S39x1024x128.size a
  inb_S39x1024x128_S1x1024x128_34_0_0 : ∀ a, (![34, 0, 0] : Fin 3 → Nat) a + S1x1024x128.size a ≤ S39x1024x128.size a
  inb_S39x1024x128_S1x1024x128_35_0_0 : ∀ a, (![35, 0, 0] : Fin 3 → Nat) a + S1x1024x128.size a ≤ S39x1024x128.size a
  inb_S39x1024x128_S1x1024x128_36_0_0 : ∀ a, (![36, 0, 0] : Fin 3 → Nat) a + S1x1024x128.size a ≤ S39x1024x128.size a
  inb_S39x1024x128_S1x1024x128_37_0_0 : ∀ a, (![37, 0, 0] : Fin 3 → Nat) a + S1x1024x128.size a ≤ S39x1024x128.size a
  inb_S39x1024x128_S1x1024x128_38_0_0 : ∀ a, (![38, 0, 0] : Fin 3 → Nat) a + S1x1024x128.size a ≤ S39x1024x128.size a
  reduces_S1024x128_S1024 : S1024x128.Reduces [1] S1024
  inb_S1024x39_S1024x39_0_0 : ∀ a, (![0, 0] : Fin 2 → Nat) a + S1024x39.size a ≤ S1024x39.size a
  h_S1024x39 : 0 < S1024x39.numel
  shapeCasts_S1024x39_S1024x39 : S1024x39.ShapeCasts S1024x39
  reduces_S1024x39_S1024 : S1024x39.Reduces [1] S1024
  inb_S1024_S1024_0 : ∀ a, (![0] : Fin 1 → Nat) a + S1024.size a ≤ S1024.size a
  h_S1024 : 0 < S1024.numel
  shapeCasts_S1_S_ : S1.ShapeCasts S_
  bcast_S_S16384 : S_.BroadcastsInDim S16384 (![] : Fin 0 → Fin S16384.rank)
  gather_S3900000x8_S39x16384x1_S39x16384x8_2_0_n_n_0_2_18_wf : GatherDims.WF S3900000x8 S39x16384x1 S39x16384x8 [2] [0] [] [0] [] 2 ![1, 8]
  gather_S9984x8x16_S39x16384x8x2_S39x16384x8x16_3_01_n_n_01_3_1116_wf : GatherDims.WF S9984x8x16 S39x16384x8x2 S39x16384x8x16 [3] [0, 1] [] [0, 1] [] 3 ![1, 1, 16]
  gather_S3900000_S16384x39x1_S16384x39_n_0_n_n_0_2_1_wf : GatherDims.WF S3900000 S16384x39x1 S16384x39 [] [0] [] [0] [] 2 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S39x1024x128.size a ≤ S39x16384x128.size a
  hwx0_0 : ∀ i : grid0.Coords, EltTy.bits .bf16 = 32 ∨ (Rect.block (s := S39x16384x128) S39x1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x39.size a ≤ S16384x39.size a
  hwx0_1 : ∀ i : grid0.Coords, EltTy.bits .f32 = 32 ∨ (Rect.block (s := S16384x39) S1024x39.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S16384.size a
  hwx0_2 : ∀ i : grid0.Coords, EltTy.bits .f32 = 32 ∨ (Rect.block (s := S16384) S1024.size (cc0_transform_2 i) (hinb0_2 i)).WholeWords (EltTy.packing .f32)

variable [Facts₀]

def gather_S3900000x8_S39x16384x1_S39x16384x8_2_0_n_n_0_2_18 : GatherDims S3900000x8 S39x16384x1 S39x16384x8 where
  offsetDims := [2]
  collapsedSliceDims := [0]
  operandBatchingDims := []
  startIndicesBatchingDims := []
  startIndexMap := [0]
  indexVectorDim := 2
  sliceSizes := ![1, 8]
  wf := gather_S3900000x8_S39x16384x1_S39x16384x8_2_0_n_n_0_2_18_wf
def gather_S9984x8x16_S39x16384x8x2_S39x16384x8x16_3_01_n_n_01_3_1116 : GatherDims S9984x8x16 S39x16384x8x2 S39x16384x8x16 where
  offsetDims := [3]
  collapsedSliceDims := [0, 1]
  operandBatchingDims := []
  startIndicesBatchingDims := []
  startIndexMap := [0, 1]
  indexVectorDim := 3
  sliceSizes := ![1, 1, 16]
  wf := gather_S9984x8x16_S39x16384x8x2_S39x16384x8x16_3_01_n_n_01_3_1116_wf
def gather_S3900000_S16384x39x1_S16384x39_n_0_n_n_0_2_1 : GatherDims S3900000 S16384x39x1 S16384x39 where
  offsetDims := []
  collapsedSliceDims := [0]
  operandBatchingDims := []
  startIndicesBatchingDims := []
  startIndexMap := [0]
  indexVectorDim := 2
  sliceSizes := ![1]
  wf := gather_S3900000_S16384x39x1_S16384x39_n_0_n_n_0_2_1_wf

abbrev win0_0 : Pipeline.Window sig grid0 :=
  Pipeline.Window.ofSpec (Memref.whole main_v39) S39x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S1024x39.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v47) S1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x39 : Shape := ⟨2, ![16384, 39]⟩
abbrev S9984x128 : Shape := ⟨2, ![9984, 128]⟩
abbrev S3900000x8 : Shape := ⟨2, ![3900000, 8]⟩
abbrev S3900000 : Shape := ⟨1, ![3900000]⟩
abbrev S1 : Shape := ⟨1, ![1]⟩
abbrev S39 : Shape := ⟨1, ![39]⟩
abbrev S_ : Shape := ⟨0, ![]⟩
abbrev S1x39 : Shape := ⟨2, ![1, 39]⟩
abbrev S16384x39x1 : Shape := ⟨3, ![16384, 39, 1]⟩
abbrev S16384x39x8 : Shape := ⟨3, ![16384, 39, 8]⟩
abbrev S1x39x1 : Shape := ⟨3, ![1, 39, 1]⟩
abbrev S9984x8x16 : Shape := ⟨3, ![9984, 8, 16]⟩
abbrev S8 : Shape := ⟨1, ![8]⟩
abbrev S1x1x8 : Shape := ⟨3, ![1, 1, 8]⟩
abbrev S16384x39x8x1 : Shape := ⟨4, ![16384, 39, 8, 1]⟩
abbrev S16384x39x8x2 : Shape := ⟨4, ![16384, 39, 8, 2]⟩
abbrev S16384x39x8x16 : Shape := ⟨4, ![16384, 39, 8, 16]⟩
abbrev S16384x39x128 : Shape := ⟨3, ![16384, 39, 128]⟩
abbrev S16384x128 : Shape := ⟨2, ![16384, 128]⟩
abbrev S16384 : Shape := ⟨1, ![16384]⟩

abbrev nBuf : Space → Nat
  | .hbm => 78
  | .vmem => 0
  | .smem => 0
  | _ => 0

abbrev bufTy : (tb : Table) → Fin (tcTables nBuf tb) → BufTy
  | .hbm, ⟨0, _⟩ => ⟨S16384x39, .i32⟩
  | .hbm, ⟨1, _⟩ => ⟨S9984x128, .f32⟩
  | .hbm, ⟨2, _⟩ => ⟨S3900000x8, .i32⟩
  | .hbm, ⟨3, _⟩ => ⟨S3900000, .f32⟩
  | .hbm, ⟨4, _⟩ => ⟨S1, .f32⟩
  | .hbm, ⟨5, _⟩ => ⟨S39, .i32⟩
  | .hbm, ⟨6, _⟩ => ⟨S_, .i32⟩
  | .hbm, ⟨7, _⟩ => ⟨S39, .i32⟩
  | .hbm, ⟨8, _⟩ => ⟨S39, .i32⟩
  | .hbm, ⟨9, _⟩ => ⟨S1x39, .i32⟩
  | .hbm, ⟨10, _⟩ => ⟨S16384x39, .i32⟩
  | .hbm, ⟨11, _⟩ => ⟨S16384x39, .i32⟩
  | .hbm, ⟨12, _⟩ => ⟨S_, .i32⟩
  | .hbm, ⟨13, _⟩ => ⟨S16384x39, .i32⟩
  | .hbm, ⟨14, _⟩ => ⟨S16384x39, .i1⟩
  | .hbm, ⟨15, _⟩ => ⟨S_, .i32⟩
  | .hbm, ⟨16, _⟩ => ⟨S16384x39, .i32⟩
  | .hbm, ⟨17, _⟩ => ⟨S16384x39, .i32⟩
  | .hbm, ⟨18, _⟩ => ⟨S16384x39, .i32⟩
  | .hbm, ⟨19, _⟩ => ⟨S16384x39x1, .i32⟩
  | .hbm, ⟨20, _⟩ => ⟨S16384x39x8, .i32⟩
  | .hbm, ⟨21, _⟩ => ⟨S39, .i32⟩
  | .hbm, ⟨22, _⟩ => ⟨S_, .i32⟩
  | .hbm, ⟨23, _⟩ => ⟨S39, .i32⟩
  | .hbm, ⟨24, _⟩ => ⟨S39, .i32⟩
  | .hbm, ⟨25, _⟩ => ⟨S1x39x1, .i32⟩
  | .hbm, ⟨26, _⟩ => ⟨S16384x39x8, .i32⟩
  | .hbm, ⟨27, _⟩ => ⟨S16384x39x8, .i32⟩
  | .hbm, ⟨28, _⟩ => ⟨S9984x8x16, .f32⟩
  | .hbm, ⟨29, _⟩ => ⟨S8, .i32⟩
  | .hbm, ⟨30, _⟩ => ⟨S1x1x8, .i32⟩
  | .hbm, ⟨31, _⟩ => ⟨S_, .i32⟩
  | .hbm, ⟨32, _⟩ => ⟨S16384x39x8, .i32⟩
  | .hbm, ⟨33, _⟩ => ⟨S16384x39x8, .i1⟩
  | .hbm, ⟨34, _⟩ => ⟨S_, .i32⟩
  | .hbm, ⟨35, _⟩ => ⟨S16384x39x8, .i32⟩
  | .hbm, ⟨36, _⟩ => ⟨S16384x39x8, .i32⟩
  | .hbm, ⟨37, _⟩ => ⟨S16384x39x8, .i32⟩
  | .hbm, ⟨38, _⟩ => ⟨S_, .i32⟩
  | .hbm, ⟨39, _⟩ => ⟨S1x1x8, .i32⟩
  | .hbm, ⟨40, _⟩ => ⟨S1x1x8, .i1⟩
  | .hbm, ⟨41, _⟩ => ⟨S_, .i32⟩
  | .hbm, ⟨42, _⟩ => ⟨S1x1x8, .i32⟩
  | .hbm, ⟨43, _⟩ => ⟨S1x1x8, .i32⟩
  | .hbm, ⟨44, _⟩ => ⟨S1x1x8, .i32⟩
  | .hbm, ⟨45, _⟩ => ⟨S16384x39x8, .i32⟩
  | .hbm, ⟨46, _⟩ => ⟨S16384x39x8x1, .i32⟩
  | .hbm, ⟨47, _⟩ => ⟨S16384x39x8x1, .i32⟩
  | .hbm, ⟨48, _⟩ => ⟨S16384x39x8x2, .i32⟩
  | .hbm, ⟨49, _⟩ => ⟨S16384x39x8x16, .f32⟩
  | .hbm, ⟨50, _⟩ => ⟨S16384x39x128, .f32⟩
  | .hbm, ⟨51, _⟩ => ⟨S_, .f32⟩
  | .hbm, ⟨52, _⟩ => ⟨S16384x128, .f32⟩
  | .hbm, ⟨53, _⟩ => ⟨S16384x128, .f32⟩
  | .hbm, ⟨54, _⟩ => ⟨S16384x39x128, .f32⟩
  | .hbm, ⟨55, _⟩ => ⟨S_, .f32⟩
  | .hbm, ⟨56, _⟩ => ⟨S16384x128, .f32⟩
  | .hbm, ⟨57, _⟩ => ⟨S16384x128, .f32⟩
  | .hbm, ⟨58, _⟩ => ⟨S_, .f32⟩
  | .hbm, ⟨59, _⟩ => ⟨S16384, .f32⟩
  | .hbm, ⟨60, _⟩ => ⟨S_, .f32⟩
  | .hbm, ⟨61, _⟩ => ⟨S16384, .f32⟩
  | .hbm, ⟨62, _⟩ => ⟨S16384, .f32⟩
  | .hbm, ⟨63, _⟩ => ⟨S_, .i32⟩
  | .hbm, ⟨64, _⟩ => ⟨S16384x39, .i32⟩
  | .hbm, ⟨65, _⟩ => ⟨S16384x39, .i1⟩
  | .hbm, ⟨66, _⟩ => ⟨S_, .i32⟩
  | .hbm, ⟨67, _⟩ => ⟨S16384x39, .i32⟩
  | .hbm, ⟨68, _⟩ => ⟨S16384x39, .i32⟩
  | .hbm, ⟨69, _⟩ => ⟨S16384x39, .i32⟩
  | .hbm, ⟨70, _⟩ => ⟨S16384x39x1, .i32⟩
  | .hbm, ⟨71, _⟩ => ⟨S16384x39, .f32⟩
  | .hbm, ⟨72, _⟩ => ⟨S_, .f32⟩
  | .hbm, ⟨73, _⟩ => ⟨S16384, .f32⟩
  | .hbm, ⟨74, _⟩ => ⟨S_, .f32⟩
  | .hbm, ⟨75, _⟩ => ⟨S16384, .f32⟩
  | .hbm, ⟨76, _⟩ => ⟨S16384, .f32⟩
  | .hbm, ⟨77, _⟩ => ⟨S16384, .f32⟩
  | _, _ => ⟨S16384x39, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_c_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_c_10 : Ref sig .tc := ⟨.hbm, 63, rfl⟩
abbrev main_v46 : Ref sig .tc := ⟨.hbm, 64, rfl⟩
abbrev main_v47 : Ref sig .tc := ⟨.hbm, 65, rfl⟩
abbrev main_c_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]

class Facts₀ : Prop where
  bcast_S_S39 : S_.BroadcastsInDim S39 (![] : Fin 0 → Fin S39.rank)
  bcast_S39_S1x39_1 : S39.BroadcastsInDim S1x39 (![1] : Fin 1 → Fin S1x39.rank)
  bcast_S1x39_S16384x39_0_1 : S1x39.BroadcastsInDim S16384x39 (![0, 1] : Fin 2 → Fin S16384x39.rank)
  bcast_S_S16384x39 : S_.BroadcastsInDim S16384x39 (![] : Fin 0 → Fin S16384x39.rank)
  bcast_S16384x39_S16384x39x1_0_1 : S16384x39.BroadcastsInDim S16384x39x1 (![0, 1] : Fin 2 → Fin S16384x39x1.rank)
  bcast_S39_S1x39x1_1 : S39.BroadcastsInDim S1x39x1 (![1] : Fin 1 → Fin S1x39x1.rank)
  bcast_S1x39x1_S16384x39x8_0_1_2 : S1x39x1.BroadcastsInDim S16384x39x8 (![0, 1, 2] : Fin 3 → Fin S16384x39x8.rank)
  shapeCasts_S9984x128_S9984x8x16 : S9984x128.ShapeCasts S9984x8x16
  bcast_S8_S1x1x8_2 : S8.BroadcastsInDim S1x1x8 (![2] : Fin 1 → Fin S1x1x8.rank)
  bcast_S_S16384x39x8 : S_.BroadcastsInDim S16384x39x8 (![] : Fin 0 → Fin S16384x39x8.rank)
  bcast_S_S1x1x8 : S_.BroadcastsInDim S1x1x8 (![] : Fin 0 → Fin S1x1x8.rank)
  bcast_S1x1x8_S16384x39x8_0_1_2 : S1x1x8.BroadcastsInDim S16384x39x8 (![0, 1, 2] : Fin 3 → Fin S16384x39x8.rank)
  bcast_S16384x39x8_S16384x39x8x1_0_1_2 : S16384x39x8.BroadcastsInDim S16384x39x8x1 (![0, 1, 2] : Fin 3 → Fin S16384x39x8x1.rank)
  concatenates_S16384x39x8x1_S16384x39x8x1_S16384x39x8x2_d3 : Shape.Concatenates [S16384x39x8x1, S16384x39x8x1] S16384x39x8x2 3
  shapeCasts_S16384x39x8x16_S16384x39x128 : S16384x39x8x16.ShapeCasts S16384x39x128
  reducesTo_S16384x39x128_S16384x128_d1 : S16384x39x128.ReducesTo [1] S16384x128
  h_S_ : 0 < S_.numel
  reducesTo_S16384x128_S16384_d1 : S16384x128.ReducesTo [1] S16384
  bcast_S_S16384 : S_.BroadcastsInDim S16384 (![] : Fin 0 → Fin S16384.rank)
  reducesTo_S16384x39_S16384_d1 : S16384x39.ReducesTo [1] S16384
  shapeCasts_S1_S_ : S1.ShapeCasts S_
  gather_S3900000x8_S16384x39x1_S16384x39x8_2_0_n_n_0_2_18_wf : GatherDims.WF S3900000x8 S16384x39x1 S16384x39x8 [2] [0] [] [0] [] 2 ![1, 8]
  gather_S9984x8x16_S16384x39x8x2_S16384x39x8x16_3_01_n_n_01_3_1116_wf : GatherDims.WF S9984x8x16 S16384x39x8x2 S16384x39x8x16 [3] [0, 1] [] [0, 1] [] 3 ![1, 1, 16]
  gather_S3900000_S16384x39x1_S16384x39_n_0_n_n_0_2_1_wf : GatherDims.WF S3900000 S16384x39x1 S16384x39 [] [0] [] [0] [] 2 ![1]

variable [Facts₀]

def gather_S3900000x8_S16384x39x1_S16384x39x8_2_0_n_n_0_2_18 : GatherDims S3900000x8 S16384x39x1 S16384x39x8 where
  offsetDims := [2]
  collapsedSliceDims := [0]
  operandBatchingDims := []
  startIndicesBatchingDims := []
  startIndexMap := [0]
  indexVectorDim := 2
  sliceSizes := ![1, 8]
  wf := gather_S3900000x8_S16384x39x1_S16384x39x8_2_0_n_n_0_2_18_wf
def gather_S9984x8x16_S16384x39x8x2_S16384x39x8x16_3_01_n_n_01_3_1116 : GatherDims S9984x8x16 S16384x39x8x2 S16384x39x8x16 where
  offsetDims := [3]
  collapsedSliceDims := [0, 1]
  operandBatchingDims := []
  startIndicesBatchingDims := []
  startIndexMap := [0, 1]
  indexVectorDim := 3
  sliceSizes := ![1, 1, 16]
  wf := gather_S9984x8x16_S16384x39x8x2_S16384x39x8x16_3_01_n_n_01_3_1116_wf
def gather_S3900000_S16384x39x1_S16384x39_n_0_n_n_0_2_1 : GatherDims S3900000 S16384x39x1 S16384x39 where
  offsetDims := []
  collapsedSliceDims := [0]
  operandBatchingDims := []
  startIndicesBatchingDims := []
  startIndexMap := [0]
  indexVectorDim := 2
  sliceSizes := ![1]
  wf := gather_S3900000_S16384x39x1_S16384x39_n_0_n_n_0_2_1_wf

class Facts : Prop extends Facts₀ where

variable [Facts]
-- ==== Proof.KernelHost.lean ====
/-
  The arrays the kernel's host lines hand to the kernel region, as functions of the program's arguments.

  Before the region the host computes, from the raw feature ids `x : [16384, 39]`: the flat ids `x + 100000·field`; their
  transpose (field-major); each flat id brought into range as a row of the index table (a negative id gets the table's
  height added); the row's 8 stored codes; each code moved into its field's block of the codebook table
  (`+ 256·field`, again with negative values wrapped) and paired with its sub-vector number `0 … 7`; the 16 numbers the
  codebook (seen as `[9984, 8, 16]`) holds at each pair; all of it re-laid as `[39, 16384, 128]` and narrowed to bf16
  (`emb`). Beside it, the linear weights looked up at the flat ids, `[16384, 39]` (`lin`).
  `V_emb` and `V_lin` say these are what the region finds in its two input arrays.
-/
import proofs.«167912_j40759239639136_2_alg».proof.Proof.Gen.KernelIdeal.Frame
import Idealize.ShloMosaic.Lib.StableHlo.Run

noncomputable section

namespace Cert.KernelIdeal.HostValue

open Cert.KernelIdeal Idealize.ShloMosaic Idealize.ShloMosaic.TcCoe Idealize.SL.Sem Idealize.ShloMosaic.StableHlo
open Facts₀ Facts

variable {F : FTy → Type} [FloatOps F]

/-- The flat feature ids: `x + 100000·field`. -/
def ids (x0 : (⟨S16384x39, .i32⟩ : BufTy).Contents (Elt F)) : (⟨S16384x39, .i32⟩ : BufTy).Contents (Elt F) :=
  addi x0 (broadcastInDim S16384x39 ![0, 1] bcast_S1x39_S16384x39_0_1 (broadcastInDim S1x39 ![1] bcast_S39_S1x39_1
    (muli (iotaInDim S39 32 0) (broadcastInDim S39 ![] bcast_S_S39 (constantI S_ 32 100000#32)))))

/-- The flat ids, field-major. -/
def idsT (x0 : (⟨S16384x39, .i32⟩ : BufTy).Contents (Elt F)) : (⟨S39x16384, .i32⟩ : BufTy).Contents (Elt F) :=
  transpose S39x16384 [1, 0] (ids (F := F) x0) transposes_S16384x39_S39x16384_1_0

/-- The flat ids as rows of the index table: a negative one gets the table's height added. -/
def rows (x0 : (⟨S16384x39, .i32⟩ : BufTy).Contents (Elt F)) : (⟨S39x16384, .i32⟩ : BufTy).Contents (Elt F) :=
  select (cmpi .slt (idsT (F := F) x0) (broadcastInDim S39x16384 ![] bcast_S_S39x16384 (constantI S_ 32 0#32)))
    (addi (idsT (F := F) x0) (broadcastInDim S39x16384 ![] bcast_S_S39x16384 (constantI S_ 32 3900000#32))) (idsT (F := F) x0)

/-- The 8 codes stored at each row. -/
def codes (x0 : (⟨S16384x39, .i32⟩ : BufTy).Contents (Elt F)) (x2 : (⟨S3900000x8, .i32⟩ : BufTy).Contents (Elt F)) :
    (⟨S39x16384x8, .i32⟩ : BufTy).Contents (Elt F) :=
  Host.gather gather_S3900000x8_S39x16384x1_S39x16384x8_2_0_n_n_0_2_18 x2
    (broadcastInDim S39x16384x1 ![0, 1] bcast_S39x16384_S39x16384x1_0_1 (rows (F := F) x0))

/-- `256·field`, at every entry. -/
def fieldOff : (⟨S39x16384x8, .i32⟩ : BufTy).Contents (Elt F) :=
  broadcastInDim S39x16384x8 ![0, 1, 2] bcast_S39x1x1_S39x16384x8_0_1_2 (broadcastInDim S39x1x1 ![0] bcast_S39_S39x1x1_0
    (muli (iotaInDim S39 32 0) (broadcastInDim S39 ![] bcast_S_S39 (constantI S_ 32 256#32))))

/-- Each code moved into its field's block of the codebook table. -/
def cbIds (x0 : (⟨S16384x39, .i32⟩ : BufTy).Contents (Elt F)) (x2 : (⟨S3900000x8, .i32⟩ : BufTy).Contents (Elt F)) :
    (⟨S39x16384x8, .i32⟩ : BufTy).Contents (Elt F) :=
  addi (codes (F := F) x0 x2) (fieldOff (F := F))

/-- The same as rows of the codebook table: a negative one gets the table's height added. -/
def cbRows (x0 : (⟨S16384x39, .i32⟩ : BufTy).Contents (Elt F)) (x2 : (⟨S3900000x8, .i32⟩ : BufTy).Contents (Elt F)) :
    (⟨S39x16384x8, .i32⟩ : BufTy).Contents (Elt F) :=
  select (cmpi .slt (cbIds (F := F) x0 x2) (broadcastInDim S39x16384x8 ![] bcast_S_S39x16384x8 (constantI S_ 32 0#32)))
    (addi (cbIds (F := F) x0 x2) (broadcastInDim S39x16384x8 ![] bcast_S_S39x16384x8 (constantI S_ 32 9984#32))) (cbIds (F := F) x0 x2)

/-- The sub-vector numbers `0 … 7`. -/
def subIota : (⟨S1x1x8, .i32⟩ : BufTy).Contents (Elt F) :=
  broadcastInDim S1x1x8 ![2] bcast_S8_S1x1x8_2 (iotaInDim S8 32 0)

/-- The sub-vector numbers, a negative one getting 8 added. -/
def subs : (⟨S1x1x8, .i32⟩ : BufTy).Contents (Elt F) :=
  select (cmpi .slt (subIota (F := F)) (broadcastInDim S1x1x8 ![] bcast_S_S1x1x8 (constantI S_ 32 0#32)))
    (addi (subIota (F := F)) (broadcastInDim S1x1x8 ![] bcast_S_S1x1x8 (constantI S_ 32 8#32))) (subIota (F := F))

/-- The pairs (codebook row, sub-vector number). -/
def pairs (x0 : (⟨S16384x39, .i32⟩ : BufTy).Contents (Elt F)) (x2 : (⟨S3900000x8, .i32⟩ : BufTy).Contents (Elt F)) :
    (⟨S39x16384x8x2, .i32⟩ : BufTy).Contents (Elt F) :=
  concatenate S39x16384x8x2 3
    [⟨S39x16384x8x1, broadcastInDim S39x16384x8x1 ![0, 1, 2] bcast_S39x16384x8_S39x16384x8x1_0_1_2 (cbRows (F := F) x0 x2)⟩,
     ⟨S39x16384x8x1, broadcastInDim S39x16384x8x1 ![0, 1, 2] bcast_S39x16384x8_S39x16384x8x1_0_1_2
        (broadcastInDim S39x16384x8 ![0, 1, 2] bcast_S1x1x8_S39x16384x8_0_1_2 (subs (F := F)))⟩]
    concatenates_S39x16384x8x1_S39x16384x8x1_S39x16384x8x2_d3

/-- The 16 numbers the codebook holds at each pair. -/
def emb4 (x0 : (⟨S16384x39, .i32⟩ : BufTy).Contents (Elt F)) (x1 : (⟨S9984x128, .f32⟩ : BufTy).Contents (Elt F))
    (x2 : (⟨S3900000x8, .i32⟩ : BufTy).Contents (Elt F)) : (⟨S39x16384x8x16, .f32⟩ : BufTy).Contents (Elt F) :=
  Host.gather gather_S9984x8x16_S39x16384x8x2_S39x16384x8x16_3_01_n_n_01_3_1116
    (shapeCast _ x1 shapeCasts_S9984x128_S9984x8x16) (pairs (F := F) x0 x2)

/-- The embeddings, field-major, narrowed to bf16: the region's first input array. -/
def emb (x0 : (⟨S16384x39, .i32⟩ : BufTy).Contents (Elt F)) (x1 : (⟨S9984x128, .f32⟩ : BufTy).Contents (Elt F))
    (x2 : (⟨S3900000x8, .i32⟩ : BufTy).Contents (Elt F)) : (⟨S39x16384x128, .bf16⟩ : BufTy).Contents (Elt F) :=
  truncf .bf16 (shapeCast _ (emb4 (F := F) x0 x1 x2) shapeCasts_S39x16384x8x16_S39x16384x128) bitsLt_bf16_f32

/-- The linear weights looked up at the flat ids: the region's second input array. -/
def lin (x0 : (⟨S16384x39, .i32⟩ : BufTy).Contents (Elt F)) (x3 : (⟨S3900000, .f32⟩ : BufTy).Contents (Elt F)) :
    (⟨S16384x39, .f32⟩ : BufTy).Contents (Elt F) :=
  Host.gather gather_S3900000_S16384x39x1_S16384x39_n_0_n_n_0_2_1 x3
    (broadcastInDim S16384x39x1 ![0, 1] bcast_S16384x39_S16384x39x1_0_1
      (select (cmpi .slt (ids (F := F) x0) (broadcastInDim S16384x39 ![] bcast_S_S16384x39 (constantI S_ 32 0#32)))
        (addi (ids (F := F) x0) (broadcastInDim S16384x39 ![] bcast_S_S16384x39 (constantI S_ 32 3900000#32))) (ids (F := F) x0)))

set_option maxRecDepth 8192 in
set_option maxHeartbeats 4000000 in
/-- The region finds `emb` of the arguments in its first input array. -/
theorem V_emb (m : (ℓ : Loc nD τ sig) → Buf (Elt F) ℓ) (c : Dev nD) :
    (Gen.V m c main_v39 : (⟨S39x16384x128, .bf16⟩ : BufTy).Contents (Elt F))
      = emb (F := F) (m ((c.tc : Thread nD τ).loc main_arg0)) (m ((c.tc : Thread nD τ).loc main_arg1))
          (m ((c.tc : Thread nD τ).loc main_arg2)) := by
  show StableHlo.after Gen.hostOps0 (fun b => m (c, b)) (Proc.devRef .tc main_v39) = _
  after_results
  rfl

set_option maxRecDepth 8192 in
set_option maxHeartbeats 4000000 in
/-- The region finds `lin` of the arguments in its second input array. -/
theorem V_lin (m : (ℓ : Loc nD τ sig) → Buf (Elt F) ℓ) (c : Dev nD) :
    (Gen.V m c main_v46 : (⟨S16384x39, .f32⟩ : BufTy).Contents (Elt F))
      = lin (F := F) (m ((c.tc : Thread nD τ).loc main_arg0)) (m ((c.tc : Thread nD τ).loc main_arg3)) := by
  show StableHlo.after Gen.hostOps0 (fun b => m (c, b)) (Proc.devRef .tc main_v46) = _
  after_results
  rfl

end Cert.KernelIdeal.HostValue

end
-- ==== Proof.LibGatherRead.lean ====
/-
  Two shapes of `stablehlo.gather` read at one result index, for any sizes.

  * A flat table `x : [N]` looked up at an integer array `idx : [A, B, C]` (carried as `[A, B, C, 1]`): result element
    `(a, b, c)` is `x` at the start index `idx[a, b, c, 0]`, read as a signed integer and clamped into `[0, N − 1]`.
  * A table of rows `x : [N, D]` looked up at `idx : [A, B]` (carried as `[A, B, 1]`), each lookup returning a whole row:
    result element `(a, b, d)` is `x` at row `idx[a, b, 0]` (signed, clamped into `[0, N − 1]`) and column `d`.

  In both the operand's axis 0 is collapsed and is the only axis the start index names, so the clamp is the only
  thing between the index word and the row; the second has one offset axis, the row's own.
-/
import Idealize.ShloMosaic.Lib.ValueIdx

noncomputable section

namespace Cert.GatherRead

open Idealize.ShloMosaic Idealize.ShloMosaic.ValueIdx

variable {α : Type}

/-! ## A flat table at a rank-3 array of indices -/

/-- The dimension numbers of a lookup of `[N]` at `[A, B, C, 1]` giving `[A, B, C]`: no offset axis, the operand's one
    axis collapsed and named by the start index, the index vector on the last axis, slices of one element. -/
abbrev flatDims (N A B C : Nat)
    (wf : GatherDims.WF ⟨1, ![N]⟩ ⟨4, ![A, B, C, 1]⟩ ⟨3, ![A, B, C]⟩ [] [0] [] [0] [] 3 ![1]) :
    GatherDims ⟨1, ![N]⟩ ⟨4, ![A, B, C, 1]⟩ ⟨3, ![A, B, C]⟩ where
  offsetDims := []
  collapsedSliceDims := [0]
  operandBatchingDims := []
  startIndicesBatchingDims := []
  startIndexMap := [0]
  indexVectorDim := 3
  sliceSizes := ![1]
  wf := wf

/-- Where result index `(a, b, c)` finds its start index: `[a, b, c, 0]`. -/
abbrev flatIdx {A B C : Nat} (y : (⟨3, ![A, B, C]⟩ : Shape).Idx) : (⟨4, ![A, B, C, 1]⟩ : Shape).Idx :=
  fun a => match a with
    | ⟨0, _⟩ => ⟨(y 0).val, (y 0).isLt⟩
    | ⟨1, _⟩ => ⟨(y 1).val, (y 1).isLt⟩
    | ⟨2, _⟩ => ⟨(y 2).val, (y 2).isLt⟩
    | ⟨3, _⟩ => ⟨0, Nat.one_pos⟩

/-- The flat lookup at `(a, b, c)`: the table at the start index `idx[a, b, c, 0]`, signed and clamped into `[0, N − 1]`. -/
theorem gather_flat_apply {N A B C w : Nat} (hN : 0 < N)
    (wf : GatherDims.WF ⟨1, ![N]⟩ ⟨4, ![A, B, C, 1]⟩ ⟨3, ![A, B, C]⟩ [] [0] [] [0] [] 3 ![1])
    (x : (⟨1, ![N]⟩ : Shape).Idx → α) (idx : IVec ⟨4, ![A, B, C, 1]⟩ w) (y : (⟨3, ![A, B, C]⟩ : Shape).Idx) :
    Host.gather (flatDims N A B C wf) x idx y
      = x (ix1 ⟨min (idx (flatIdx y)).toInt.toNat (N - 1), by omega⟩) := by
  unfold Host.gather
  congr 1
  funext a
  obtain rfl : a = 0 := Subsingleton.elim _ _
  refine Fin.ext ?_
  show (flatDims N A B C wf).start y idx 0 + (flatDims N A B C wf).batchCoord y 0
    + (flatDims N A B C wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N A B C wf).startIndexMap from List.mem_singleton.mpr rfl)]
  have hsi : (flatDims N A B C wf).siIdx y ⟨List.idxOf (0 : Fin 1) (flatDims N A B C wf).startIndexMap,
      List.idxOf_lt_length_iff.2 (List.mem_singleton.mpr rfl)⟩ = flatIdx y := by
    funext b; refine Fin.ext ?_
    match b with
    | ⟨0, _⟩ => rfl
    | ⟨1, _⟩ => rfl
    | ⟨2, _⟩ => rfl
    | ⟨3, _⟩ => rfl
  rw [hsi]
  rfl

/-! ## A table of rows at a rank-2 array of indices -/

/-- The dimension numbers of a lookup of `[N, D]` at `[A, B, 1]` giving `[A, B, D]`: the result's last axis is the offset
    axis (the row's columns), the operand's axis 0 collapsed and named by the start index, slices of one whole row. -/
abbrev rowDims (N D A B : Nat)
    (wf : GatherDims.WF ⟨2, ![N, D]⟩ ⟨3, ![A, B, 1]⟩ ⟨3, ![A, B, D]⟩ [2] [0] [] [0] [] 2 ![1, D]) :
    GatherDims ⟨2, ![N, D]⟩ ⟨3, ![A, B, 1]⟩ ⟨3, ![A, B, D]⟩ where
  offsetDims := [2]
  collapsedSliceDims := [0]
  operandBatchingDims := []
  startIndicesBatchingDims := []
  startIndexMap := [0]
  indexVectorDim := 2
  sliceSizes := ![1, D]
  wf := wf

/-- Where result index `(a, b, d)` finds its start index: `[a, b, 0]`. -/
abbrev rowIdx {A B D : Nat} (y : (⟨3, ![A, B, D]⟩ : Shape).Idx) : (⟨3, ![A, B, 1]⟩ : Shape).Idx :=
  fun a => match a with
    | ⟨0, _⟩ => ⟨(y 0).val, (y 0).isLt⟩
    | ⟨1, _⟩ => ⟨(y 1).val, (y 1).isLt⟩
    | ⟨2, _⟩ => ⟨0, Nat.one_pos⟩

/-- The row lookup at `(a, b, d)`: the table at row `idx[a, b, 0]` (signed, clamped into `[0, N − 1]`), column `d`. -/
theorem gather_row_apply {N D A B w : Nat} (hN : 0 < N)
    (wf : GatherDims.WF ⟨2, ![N, D]⟩ ⟨3, ![A, B, 1]⟩ ⟨3, ![A, B, D]⟩ [2] [0] [] [0] [] 2 ![1, D])
    (x : (⟨2, ![N, D]⟩ : Shape).Idx → α) (idx : IVec ⟨3, ![A, B, 1]⟩ w) (y : (⟨3, ![A, B, D]⟩ : Shape).Idx) :
    Host.gather (rowDims N D A B wf) x idx y
      = x (ix2 ⟨min (idx (rowIdx y)).toInt.toNat (N - 1), by omega⟩ ⟨(y 2).val, (y 2).isLt⟩) := by
  unfold Host.gather
  congr 1
  funext a
  refine Fin.ext ?_
  match a with
  | ⟨0, _⟩ =>
    show (rowDims N D A B wf).start y idx 0 + (rowDims N D A B wf).batchCoord y 0
      + (rowDims N D A B wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D A B wf).startIndexMap from List.mem_singleton.mpr rfl)]
    have hsi : (rowDims N D A B wf).siIdx y ⟨List.idxOf (0 : Fin 2) (rowDims N D A B wf).startIndexMap,
        List.idxOf_lt_length_iff.2 (List.mem_singleton.mpr rfl)⟩ = rowIdx y := by
      funext b; refine Fin.ext ?_
      match b with
      | ⟨0, _⟩ => rfl
      | ⟨1, _⟩ => rfl
      | ⟨2, _⟩ => rfl
    rw [hsi]
    rfl
  | ⟨1, _⟩ =>
    show (rowDims N D A B wf).start y idx 1 + (rowDims N D A B wf).batchCoord y 1
      + (rowDims N D A B wf).offCoord y 1 = (y 2).val
    have hs : (rowDims N D A B wf).start y idx 1 = 0 := by
      unfold GatherDims.start
      rw [dif_neg (show (1 : Fin 2) ∉ (rowDims N D A B wf).startIndexMap from
        (by decide : (1 : Fin 2) ∉ [(0 : Fin 2)]))]
    have hk : (1 : Fin 2) ∈ (rowDims N D A B wf).sKept :=
      (GatherDims.mem_sKept _ _).mpr ⟨(by decide : (1 : Fin 2) ∉ [(0 : Fin 2)]), List.not_mem_nil⟩
    rw [hs, GatherDims.batchCoord_eq_zero _ _ _ List.not_mem_nil]
    simp only [Nat.zero_add, Nat.add_zero]
    unfold GatherDims.offCoord
    rw [dif_pos hk]
    rfl

end Cert.GatherRead

end
-- ==== Proof.LibGatherPair.lean ====
/-
  One more shape of `stablehlo.gather` read at one result index, for any sizes: a table `x : [N, M, Q]` looked up at
  PAIRS of indices `idx : [A, B, C, 2]`, each lookup returning the whole last axis. Result element `(a, b, c, q)` is `x` at
  row `idx[a, b, c, 0]` and column `idx[a, b, c, 1]` (each read as a signed integer and clamped into its axis) and position
  `q` of the last axis. The operand's axes 0 and 1 are collapsed and are the two axes the start index names; the last
  axis is the one offset axis.
-/
import Idealize.ShloMosaic.Lib.ValueIdx

noncomputable section

namespace Cert.GatherPair

open Idealize.ShloMosaic Idealize.ShloMosaic.ValueIdx

variable {α : Type}

/-- The dimension numbers of a lookup of `[N, M, Q]` at `[A, B, C, 2]` giving `[A, B, C, Q]`. -/
abbrev pairDims (N M Q A B C : Nat)
    (wf : GatherDims.WF ⟨3, ![N, M, Q]⟩ ⟨4, ![A, B, C, 2]⟩ ⟨4, ![A, B, C, Q]⟩ [3] [0, 1] [] [0, 1] [] 3 ![1, 1, Q]) :
    GatherDims ⟨3, ![N, M, Q]⟩ ⟨4, ![A, B, C, 2]⟩ ⟨4, ![A, B, C, Q]⟩ where
  offsetDims := [3]
  collapsedSliceDims := [0, 1]
  operandBatchingDims := []
  startIndicesBatchingDims := []
  startIndexMap := [0, 1]
  indexVectorDim := 3
  sliceSizes := ![1, 1, Q]
  wf := wf

/-- Where result index `(a, b, c, q)` finds component `k` of its start index: `[a, b, c, k]`. -/
abbrev pairIdx {A B C Q : Nat} (y : (⟨4, ![A, B, C, Q]⟩ : Shape).Idx) (k : Fin 2) : (⟨4, ![A, B, C, 2]⟩ : Shape).Idx :=
  fun a => match a with
    | ⟨0, _⟩ => ⟨(y 0).val, (y 0).isLt⟩
    | ⟨1, _⟩ => ⟨(y 1).val, (y 1).isLt⟩
    | ⟨2, _⟩ => ⟨(y 2).val, (y 2).isLt⟩
    | ⟨3, _⟩ => k

/-- The pair lookup at `(a, b, c, q)`: the table at row `idx[a, b, c, 0]` (signed, clamped into `[0, N − 1]`), column
    `idx[a, b, c, 1]` (signed, clamped into `[0, M − 1]`), position `q`. -/
theorem gather_pair_apply {N M Q A B C w : Nat} (hN : 0 < N) (hM : 0 < M)
    (wf : GatherDims.WF ⟨3, ![N, M, Q]⟩ ⟨4, ![A, B, C, 2]⟩ ⟨4, ![A, B, C, Q]⟩ [3] [0, 1] [] [0, 1] [] 3 ![1, 1, Q])
    (x : (⟨3, ![N, M, Q]⟩ : Shape).Idx → α) (idx : IVec ⟨4, ![A, B, C, 2]⟩ w) (y : (⟨4, ![A, B, C, Q]⟩ : Shape).Idx) :
    Host.gather (pairDims N M Q A B C wf) x idx y
      = x (ix3 ⟨min (idx (pairIdx y 0)).toInt.toNat (N - 1), by omega⟩
            ⟨min (idx (pairIdx y 1)).toInt.toNat (M - 1), by omega⟩ ⟨(y 3).val, (y 3).isLt⟩) := by
  unfold Host.gather
  congr 1
  funext a
  refine Fin.ext ?_
  match a with
  | ⟨0, _⟩ =>
    show (pairDims N M Q A B C wf).start y idx 0 + (pairDims N M Q A B C wf).batchCoord y 0
      + (pairDims N M Q A B C wf).offCoord y 0 = _
    rw [GatherDims.batchCoord_eq_zero _ _ _ List.not_mem_nil,
      GatherDims.offCoord_eq_zero _ _ _ (fun h => ((GatherDims.mem_sKept _ _).mp h).1
        (by decide : (0 : Fin 3) ∈ [(0 : Fin 3), 1]))]
    simp only [Nat.add_zero]
    unfold GatherDims.start
    rw [dif_pos (show (0 : Fin 3) ∈ (pairDims N M Q A B C wf).startIndexMap from
      (by decide : (0 : Fin 3) ∈ [(0 : Fin 3), 1]))]
    have hsi : (pairDims N M Q A B C wf).siIdx y ⟨List.idxOf (0 : Fin 3) (pairDims N M Q A B C wf).startIndexMap,
        List.idxOf_lt_length_iff.2 (by decide : (0 : Fin 3) ∈ [(0 : Fin 3), 1])⟩ = pairIdx y 0 := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show (pairDims N M Q A B C wf).start y idx 1 + (pairDims N M Q A B C wf).batchCoord y 1
      + (pairDims N M Q A B C wf).offCoord y 1 = _
    rw [GatherDims.batchCoord_eq_zero _ _ _ List.not_mem_nil,
      GatherDims.offCoord_eq_zero _ _ _ (fun h => ((GatherDims.mem_sKept _ _).mp h).1
        (by decide : (1 : Fin 3) ∈ [(0 : Fin 3), 1]))]
    simp only [Nat.add_zero]
    unfold GatherDims.start
    rw [dif_pos (show (1 : Fin 3) ∈ (pairDims N M Q A B C wf).startIndexMap from
      (by decide : (1 : Fin 3) ∈ [(0 : Fin 3), 1]))]
    have hsi : (pairDims N M Q A B C wf).siIdx y ⟨List.idxOf (1 : Fin 3) (pairDims N M Q A B C wf).startIndexMap,
        List.idxOf_lt_length_iff.2 (by decide : (1 : Fin 3) ∈ [(0 : Fin 3), 1])⟩ = pairIdx y 1 := by
      funext b; refine Fin.ext ?_
      match b with
      | ⟨0, _⟩ => rfl
      | ⟨1, _⟩ => rfl
      | ⟨2, _⟩ => rfl
      | ⟨3, _⟩ => rfl
    rw [hsi]
    rfl
  | ⟨2, _⟩ =>
    show (pairDims N M Q A B C wf).start y idx 2 + (pairDims N M Q A B C wf).batchCoord y 2
      + (pairDims N M Q A B C wf).offCoord y 2 = (y 3).val
    have hs : (pairDims N M Q A B C wf).start y idx 2 = 0 := by
      unfold GatherDims.start
      rw [dif_neg (show (2 : Fin 3) ∉ (pairDims N M Q A B C wf).startIndexMap from
        (by decide : (2 : Fin 3) ∉ [(0 : Fin 3), 1]))]
    have hk : (2 : Fin 3) ∈ (pairDims N M Q A B C wf).sKept :=
      (GatherDims.mem_sKept _ _).mpr ⟨(by decide : (2 : Fin 3) ∉ [(0 : Fin 3), 1]), List.not_mem_nil⟩
    rw [hs, GatherDims.batchCoord_eq_zero _ _ _ List.not_mem_nil]
    simp only [Nat.zero_add, Nat.add_zero]
    unfold GatherDims.offCoord
    rw [dif_pos hk]
    rfl

end Cert.GatherPair

end
-- ==== Proof.LibIndexOps.lean ====
/-
  Small facts about index words, for reading a lookup chain at one entry.

  * A scalar integer constant broadcast to any shape reads as the constant at every index.
  * `wrap n v`: a signed index word `v` with `n` added when it is negative (how a possibly negative position is brought
    into `[0, n)` before a lookup), and the three array operations that compute it entrywise.
  * `clamp N v`: the word read as a signed integer and clamped into `[0, N − 1]` (what a lookup does to a start index),
    and the row and pair lookups restated with it at indices given by coordinates.
-/
import Idealize.ShloMosaic.Lib.ValueIdx
import Idealize.ShloMosaic.Lib.Pipeline.Value
import proofs.«167912_j40759239639136_2_alg».proof.Proof.LibGatherRead
import proofs.«167912_j40759239639136_2_alg».proof.Proof.LibGatherPair

noncomputable section

namespace Cert.IndexOps

open Idealize.ShloMosaic Idealize.ShloMosaic.ValueIdx

/-- A scalar integer constant broadcast to any shape is that constant at every index. -/
theorem bcast_const {t : Shape} (dims : Fin 0 → Fin t.rank) (h : (⟨0, ![]⟩ : Shape).BroadcastsInDim t dims)
    (c : BitVec 32) (j : t.Idx) :
    broadcastInDim t dims h (constantI (⟨0, ![]⟩ : Shape) 32 c) j = c :=
  (broadcastInDim_apply dims h (constantI (⟨0, ![]⟩ : Shape) 32 c) j (fun a => a.elim0) (fun a => a.elim0)).trans rfl

/-- A signed index word with `n` added when it is negative. -/
def wrap (n v : BitVec 32) : BitVec 32 := Scalar.select (IntOp.cmpi .slt v 0#32) (IntOp.addi v n) v

/-- `select (v < 0) (v + n) v` with both constants broadcast scalars, read at an index, is `wrap n` of the entry. -/
theorem wrap_apply {t : Shape} (dims : Fin 0 → Fin t.rank) (h : (⟨0, ![]⟩ : Shape).BroadcastsInDim t dims)
    (n : BitVec 32) (v : IVec t 32) (j : t.Idx) :
    select (cmpi .slt v (broadcastInDim t dims h (constantI (⟨0, ![]⟩ : Shape) 32 0#32)))
      (addi v (broadcastInDim t dims h (constantI (⟨0, ![]⟩ : Shape) 32 n))) v j = wrap n (v j) := by
  show Scalar.select (IntOp.cmpi .slt (v j) (broadcastInDim t dims h (constantI (⟨0, ![]⟩ : Shape) 32 0#32) j))
    (IntOp.addi (v j) (broadcastInDim t dims h (constantI (⟨0, ![]⟩ : Shape) 32 n) j)) (v j) = _
  rw [bcast_const, bcast_const]
  rfl

/-- A word read as a signed integer and clamped into `[0, N − 1]`. -/
def clamp (N : Nat) (hN : 0 < N) {w : Nat} (v : BitVec w) : Fin N := ⟨min v.toInt.toNat (N - 1), by omega⟩

variable {α : Type}

/-- The row lookup at `(a, b, d)`: the table at the clamped row `idx[a, b, 0]`, column `d`. -/
theorem gather_row_clamp {N D A B w : Nat} (hN : 0 < N)
    (wf : GatherDims.WF ⟨2, ![N, D]⟩ ⟨3, ![A, B, 1]⟩ ⟨3, ![A, B, D]⟩ [2] [0] [] [0] [] 2 ![1, D])
    (x : (⟨2, ![N, D]⟩ : Shape).Idx → α) (idx : IVec ⟨3, ![A, B, 1]⟩ w) (a : Fin A) (b : Fin B) (d : Fin D) :
    Host.gather (Cert.GatherRead.rowDims N D A B wf) x idx (ix3 a b d)
      = x (ix2 (clamp N hN (idx (ix3 a b (0 : Fin 1)))) d) := by
  refine (Cert.GatherRead.gather_row_apply hN wf x idx (ix3 a b d)).trans (congrArg x ?_)
  have hi : Cert.GatherRead.rowIdx (ix3 a b d) = ix3 a b (0 : Fin 1) := by
    funext k; refine Fin.ext ?_
    match k with
    | ⟨0, _⟩ => rfl
    | ⟨1, _⟩ => rfl
    | ⟨2, _⟩ => rfl
  funext k
  match k with
  | ⟨0, _⟩ => exact Fin.ext (by show min _ _ = min _ _; rw [hi])
  | ⟨1, _⟩ => rfl

/-- The pair lookup at `(a, b, c, q)`: the table at the clamped row `idx[a, b, c, 0]` and the clamped column
    `idx[a, b, c, 1]`, position `q`. -/
theorem gather_pair_clamp {N M Q A B C w : Nat} (hN : 0 < N) (hM : 0 < M)
    (wf : GatherDims.WF ⟨3, ![N, M, Q]⟩ ⟨4, ![A, B, C, 2]⟩ ⟨4, ![A, B, C, Q]⟩ [3] [0, 1] [] [0, 1] [] 3 ![1, 1, Q])
    (x : (⟨3, ![N, M, Q]⟩ : Shape).Idx → α) (idx : IVec ⟨4, ![A, B, C, 2]⟩ w) (a : Fin A) (b : Fin B) (c : Fin C) (q : Fin Q) :
    Host.gather (Cert.GatherPair.pairDims N M Q A B C wf) x idx (ix4 a b c q)
      = x (ix3 (clamp N hN (idx (ix4 a b c (0 : Fin 2)))) (clamp M hM (idx (ix4 a b c (1 : Fin 2)))) q) := by
  refine (Cert.GatherPair.gather_pair_apply hN hM wf x idx (ix4 a b c q)).trans (congrArg x ?_)
  have hi : ∀ k : Fin 2, Cert.GatherPair.pairIdx (ix4 a b c q) k = ix4 a b c k := by
    intro k; funext e; refine Fin.ext ?_
    match e with
    | ⟨0, _⟩ => rfl
    | ⟨1, _⟩ => rfl
    | ⟨2, _⟩ => rfl
    | ⟨3, _⟩ => rfl
  funext k
  match k with
  | ⟨0, _⟩ => exact Fin.ext (by show min _ _ = min _ _; rw [hi])
  | ⟨1, _⟩ => exact Fin.ext (by show min _ _ = min _ _; rw [hi])
  | ⟨2, _⟩ => rfl

end Cert.IndexOps

end
-- ==== Proof.EmbSpec.lean ====
/-
  One embedding entry as a function of a flat feature id word: the lookup chain both programs run.

  From the flat id word `w` of (row `b`, field `f`): the index-table row is `w` wrapped by the table's height 3900000 and
  clamped; code `m` of that row, moved into field `f`'s block (`+ 256·f`), wrapped by the codebook table's height 9984
  and clamped, is the codebook row; the sub-vector number `m` (wrapped by 8 and clamped, which leaves it as it is) is the
  column; coordinate `d = 16·m + q` of the embedding is position `q` of that sub-vector of the codebook seen as
  `[9984, 8, 16]`.
-/
import proofs.«167912_j40759239639136_2_alg».proof.Proof.LibIndexOps

noncomputable section

namespace Cert.EmbSpec

open Idealize.ShloMosaic Idealize.ShloMosaic.ValueIdx Cert.IndexOps

variable {α : Type}

/-- The index-table row of a flat id word. -/
def rowN (w : BitVec 32) : Fin 3900000 := clamp 3900000 (by decide) (wrap 3900000#32 w)

/-- The codebook row of code `m` of field `f` at a flat id word. -/
def cbN (x2 : IVec ⟨2, ![3900000, 8]⟩ 32) (w : BitVec 32) (f : Fin 39) (m : Fin 8) : Fin 9984 :=
  clamp 9984 (by decide) (wrap 9984#32 (IntOp.addi (x2 (ix2 (rowN w) m)) (IntOp.muli (BitVec.ofNat 32 f.val) 256#32)))

/-- The sub-vector column for sub-vector number `m`. -/
def subN (m : Fin 8) : Fin 8 := clamp 8 (by decide) (wrap 8#32 (BitVec.ofNat 32 m.val))

/-- Sub-vector number and position of an embedding coordinate. -/
def subOf (d : Fin 128) : Fin 8 := ⟨d.val / 16, by omega⟩
def posOf (d : Fin 128) : Fin 16 := ⟨d.val % 16, Nat.mod_lt _ (by decide)⟩

/-- Coordinate `d` of the embedding of field `f` at the flat id word `w`, from the codebook seen as `[9984, 8, 16]`. -/
def embAt (cb3 : (⟨3, ![9984, 8, 16]⟩ : Shape).Idx → α) (x2 : IVec ⟨2, ![3900000, 8]⟩ 32) (w : BitVec 32)
    (f : Fin 39) (d : Fin 128) : α :=
  cb3 (ix3 (cbN x2 w f (subOf d)) (subN (subOf d)) (posOf d))

end Cert.EmbSpec

end
-- ==== Proof.KernelHostRead.lean ====
/-
  The kernel's embedding array read at one entry.

  Entry `(f, b, d)` of the field-major array the host lines hand to the region is the lookup chain of `EmbSpec.embAt`
  run from the flat id word of (row `b`, field `f`): the transpose only moves the word, every later host line acts entry
  by entry, and each lookup reads its start index at the same `(f, b, …)`.
-/
import proofs.«167912_j40759239639136_2_alg».proof.Proof.KernelHost
import proofs.«167912_j40759239639136_2_alg».proof.Proof.EmbSpec

noncomputable section

namespace Cert.KernelIdeal.HostRead

open Cert.KernelIdeal Cert.KernelIdeal.HostValue Idealize.ShloMosaic Idealize.ShloMosaic.ValueIdx
open Cert.IndexOps Cert.EmbSpec
open Facts₀ Facts

variable (x0 : (⟨S16384x39, .i32⟩ : BufTy).Contents (Elt Ideal)) (x1 : (⟨S9984x128, .f32⟩ : BufTy).Contents (Elt Ideal))
  (x2 : (⟨S3900000x8, .i32⟩ : BufTy).Contents (Elt Ideal))

/-- The transposed ids at `(f, b)` are the ids at `(b, f)`. -/
theorem idsT_apply (f : Fin 39) (b : Fin 16384) :
    idsT (F := Ideal) x0 (ix2 f b) = ids (F := Ideal) x0 (ix2 b f) := by
  unfold idsT
  exact transpose_apply [1, 0] (ids (F := Ideal) x0) transposes_S16384x39_S39x16384_1_0 (ix2 f b) (ix2 b f)
    (fun k => by match k with | ⟨0, _⟩ => rfl | ⟨1, _⟩ => rfl)

/-- The index-table row word at `(f, b)`: the id word wrapped by the table's height. -/
theorem rows_apply (f : Fin 39) (b : Fin 16384) :
    rows (F := Ideal) x0 (ix2 f b) = wrap 3900000#32 (ids (F := Ideal) x0 (ix2 b f)) := by
  unfold rows
  exact (wrap_apply _ _ 3900000#32 (idsT (F := Ideal) x0) (ix2 f b)).trans (congrArg _ (idsT_apply x0 f b))

/-- Code `m` at `(f, b)`: the index table at the clamped row. -/
theorem codes_apply (f : Fin 39) (b : Fin 16384) (m : Fin 8) :
    codes (F := Ideal) x0 x2 (ix3 f b m) = x2 (ix2 (rowN (ids (F := Ideal) x0 (ix2 b f))) m) := by
  unfold codes
  refine (gather_row_clamp (by decide) gather_S3900000x8_S39x16384x1_S39x16384x8_2_0_n_n_0_2_18_wf x2 _ f b m).trans ?_
  refine congrArg (fun r => x2 (ix2 (clamp 3900000 (by decide) r) m)) ?_
  refine (broadcastInDim_apply _ bcast_S39x16384_S39x16384x1_0_1 (rows (F := Ideal) x0) (ix3 f b (0 : Fin 1)) (ix2 f b)
    (fun a => match a with
      | ⟨0, _⟩ => by show f.val = if (39 : Nat) = 1 then 0 else f.val; rw [if_neg (by decide)]
      | ⟨1, _⟩ => by show b.val = if (16384 : Nat) = 1 then 0 else b.val; rw [if_neg (by decide)])).trans ?_
  exact rows_apply x0 f b

/-- The field's block offset at `(f, b, m)`: `256·f`. -/
theorem fieldOff_apply (f : Fin 39) (b : Fin 16384) (m : Fin 8) :
    fieldOff (F := Ideal) (ix3 f b m) = IntOp.muli (BitVec.ofNat 32 f.val) 256#32 := by
  unfold fieldOff
  refine (broadcastInDim_apply _ bcast_S39x1x1_S39x16384x8_0_1_2 _ (ix3 f b m) (ix3 f (0 : Fin 1) (0 : Fin 1))
    (fun a => match a with
      | ⟨0, _⟩ => by show f.val = if (39 : Nat) = 1 then 0 else f.val; rw [if_neg (by decide)]
      | ⟨1, _⟩ => by show 0 = if (1 : Nat) = 1 then 0 else b.val; rw [if_pos rfl]
      | ⟨2, _⟩ => by show 0 = if (1 : Nat) = 1 then 0 else m.val; rw [if_pos rfl])).trans ?_
  refine (broadcastInDim_apply _ bcast_S39_S39x1x1_0 _ (ix3 f (0 : Fin 1) (0 : Fin 1)) (ix1 f)
    (fun a => match a with
      | ⟨0, _⟩ => by show f.val = if (39 : Nat) = 1 then 0 else f.val; rw [if_neg (by decide)])).trans ?_
  show IntOp.muli (BitVec.ofNat 32 f.val) (broadcastInDim S39 ![] bcast_S_S39 (constantI S_ 32 256#32) (ix1 f)) = _
  rw [bcast_const]

/-- The codebook row word at `(f, b, m)`: code plus block offset, wrapped by the codebook table's height. -/
theorem cbRows_apply (f : Fin 39) (b : Fin 16384) (m : Fin 8) :
    clamp 9984 (by decide) (cbRows (F := Ideal) x0 x2 (ix3 f b m)) = cbN x2 (ids (F := Ideal) x0 (ix2 b f)) f m := by
  unfold cbRows cbN
  refine congrArg (clamp 9984 (by decide)) ?_
  refine (wrap_apply _ _ 9984#32 (cbIds (F := Ideal) x0 x2) (ix3 f b m)).trans (congrArg (wrap 9984#32) ?_)
  show IntOp.addi (codes (F := Ideal) x0 x2 (ix3 f b m)) (fieldOff (F := Ideal) (ix3 f b m)) = _
  rw [codes_apply, fieldOff_apply]

/-- The sub-vector word at `m`. -/
theorem subs_apply (m : Fin 8) :
    subs (F := Ideal) (ix3 (0 : Fin 1) (0 : Fin 1) m) = wrap 8#32 (BitVec.ofNat 32 m.val) := by
  unfold subs
  refine (wrap_apply _ _ 8#32 (subIota (F := Ideal)) _).trans (congrArg (wrap 8#32) ?_)
  unfold subIota
  exact (broadcastInDim_apply _ bcast_S8_S1x1x8_2 _ (ix3 (0 : Fin 1) (0 : Fin 1) m) (ix1 m)
    (fun a => match a with
      | ⟨0, _⟩ => by show m.val = if (8 : Nat) = 1 then 0 else m.val; rw [if_neg (by decide)])).trans rfl

/-- Component 0 of the pair at `(f, b, m)` is the codebook row word. -/
theorem pairs_row (f : Fin 39) (b : Fin 16384) (m : Fin 8) :
    pairs (F := Ideal) x0 x2 (ix4 f b m (0 : Fin 2)) = cbRows (F := Ideal) x0 x2 (ix3 f b m) := by
  unfold pairs
  refine (concatenate_pair_apply_left 3 _ _ concatenates_S39x16384x8x1_S39x16384x8x1_S39x16384x8x2_d3
    (ix4 f b m (0 : Fin 2)) rfl (ix4 f b m (0 : Fin 1))
    (fun k => by match k with | ⟨0, _⟩ => rfl | ⟨1, _⟩ => rfl | ⟨2, _⟩ => rfl | ⟨3, _⟩ => rfl)).trans ?_
  exact broadcastInDim_apply _ bcast_S39x16384x8_S39x16384x8x1_0_1_2 _ (ix4 f b m (0 : Fin 1)) (ix3 f b m)
    (fun a => match a with
      | ⟨0, _⟩ => by show f.val = if (39 : Nat) = 1 then 0 else f.val; rw [if_neg (by decide)]
      | ⟨1, _⟩ => by show b.val = if (16384 : Nat) = 1 then 0 else b.val; rw [if_neg (by decide)]
      | ⟨2, _⟩ => by show m.val = if (8 : Nat) = 1 then 0 else m.val; rw [if_neg (by decide)])

/-- Component 1 of the pair at `(f, b, m)` is the sub-vector word. -/
theorem pairs_sub (f : Fin 39) (b : Fin 16384) (m : Fin 8) :
    pairs (F := Ideal) x0 x2 (ix4 f b m (1 : Fin 2)) = subs (F := Ideal) (ix3 (0 : Fin 1) (0 : Fin 1) m) := by
  unfold pairs
  refine (concatenate_pair_apply_right 3 _ _ concatenates_S39x16384x8x1_S39x16384x8x1_S39x16384x8x2_d3
    (ix4 f b m (1 : Fin 2)) rfl rfl (ix4 f b m (0 : Fin 1))
    (fun k hk => by
      match k with
      | ⟨0, _⟩ => rfl
      | ⟨1, _⟩ => rfl
      | ⟨2, _⟩ => rfl
      | ⟨3, _⟩ => exact absurd rfl hk) rfl).trans ?_
  refine (broadcastInDim_apply _ bcast_S39x16384x8_S39x16384x8x1_0_1_2 _ (ix4 f b m (0 : Fin 1)) (ix3 f b m)
    (fun a => match a with
      | ⟨0, _⟩ => by show f.val = if (39 : Nat) = 1 then 0 else f.val; rw [if_neg (by decide)]
      | ⟨1, _⟩ => by show b.val = if (16384 : Nat) = 1 then 0 else b.val; rw [if_neg (by decide)]
      | ⟨2, _⟩ => by show m.val = if (8 : Nat) = 1 then 0 else m.val; rw [if_neg (by decide)])).trans ?_
  exact broadcastInDim_apply _ bcast_S1x1x8_S39x16384x8_0_1_2 _ (ix3 f b m) (ix3 (0 : Fin 1) (0 : Fin 1) m)
    (fun a => match a with
      | ⟨0, _⟩ => by show 0 = if (1 : Nat) = 1 then 0 else f.val; rw [if_pos rfl]
      | ⟨1, _⟩ => by show 0 = if (1 : Nat) = 1 then 0 else b.val; rw [if_pos rfl]
      | ⟨2, _⟩ => by show m.val = if (8 : Nat) = 1 then 0 else m.val; rw [if_neg (by decide)])

/-- The looked-up sub-vector entry at `(f, b, m, q)`. -/
theorem emb4_apply (f : Fin 39) (b : Fin 16384) (m : Fin 8) (q : Fin 16) :
    emb4 (F := Ideal) x0 x1 x2 (ix4 f b m q)
      = (shapeCast S9984x8x16 x1 shapeCasts_S9984x128_S9984x8x16)
          (ix3 (cbN x2 (ids (F := Ideal) x0 (ix2 b f)) f m) (subN m) q) := by
  unfold emb4
  refine (gather_pair_clamp (by decide) (by decide)
    gather_S9984x8x16_S39x16384x8x2_S39x16384x8x16_3_01_n_n_01_3_1116_wf _ (pairs (F := Ideal) x0 x2) f b m q).trans ?_
  rw [pairs_row, pairs_sub, cbRows_apply, subs_apply]
  rfl

/-- Entry `(f, b, d)` of the region's first input array is the lookup chain run from the id word of `(b, f)`. -/
theorem emb_apply (f : Fin 39) (b : Fin 16384) (d : Fin 128) :
    emb (F := Ideal) x0 x1 x2 (ix3 f b d)
      = embAt (shapeCast S9984x8x16 x1 shapeCasts_S9984x128_S9984x8x16) x2 (ids (F := Ideal) x0 (ix2 b f)) f d := by
  unfold emb embAt
  show shapeCast S39x16384x128 (emb4 (F := Ideal) x0 x1 x2) shapeCasts_S39x16384x8x16_S39x16384x128 (ix3 f b d) = _
  refine (shapeCast_apply _ shapeCasts_S39x16384x8x16_S39x16384x128 (ix3 f b d) (ix4 f b (subOf d) (posOf d)) ?_).trans
    (emb4_apply x0 x1 x2 f b (subOf d) (posOf d))
  rewrite [Shape.rowMajor_val_four, Shape.rowMajor_val_three]
  have hf : f.val < 39 := f.isLt
  have hb : b.val < 16384 := b.isLt
  have hd : d.val < 128 := d.isLt
  show ((f.val * 16384 + b.val) * 8 + d.val / 16) * 16 + d.val % 16 = (f.val * 16384 + b.val) * 128 + d.val
  omega

end Cert.KernelIdeal.HostRead

end
-- ==== Proof.RefHostRead.lean ====
/-
  The reference's embedding array read at one entry.

  Entry `(b, f, d)` of the reference's `[16384, 39, 128]` embedding array is the lookup chain of `EmbSpec.embAt` run from
  the flat id word of (row `b`, field `f`): every host line acts entry by entry, and each lookup reads its start index at
  the same `(b, f, …)`.
-/
import proofs.«167912_j40759239639136_2_alg».proof.Proof.Gen.ReferenceIdeal.Read
import proofs.«167912_j40759239639136_2_alg».proof.Proof.EmbSpec

noncomputable section

namespace Cert.ReferenceIdeal.HostRead

open Cert.ReferenceIdeal Cert.ReferenceIdeal.Read Idealize.ShloMosaic Idealize.ShloMosaic.ValueIdx
open Cert.IndexOps Cert.EmbSpec
open Facts₀ Facts

variable (x0 : (⟨S16384x39, .i32⟩ : BufTy).Contents (Elt Ideal)) (x1 : (⟨S9984x128, .f32⟩ : BufTy).Contents (Elt Ideal))
  (x2 : (⟨S3900000x8, .i32⟩ : BufTy).Contents (Elt Ideal))

/-- The index-table row word: the id word wrapped by the table's height. -/
theorem rows_apply (i : S16384x39.Idx) :
    val_main_v10 (F := Ideal) x0 i = wrap 3900000#32 (val_main_v5 (F := Ideal) x0 i) := by
  unfold val_main_v10 val_main_v7 val_main_v9 val_main_v6 val_main_v8 val_main_c_0 val_main_c_1
  exact wrap_apply _ _ 3900000#32 (val_main_v5 (F := Ideal) x0) i

/-- Code `m` at `(b, f)`: the index table at the clamped row. -/
theorem codes_apply (b : Fin 16384) (f : Fin 39) (m : Fin 8) :
    val_main_v12 (F := Ideal) x0 x2 (ix3 b f m) = x2 (ix2 (rowN (val_main_v5 (F := Ideal) x0 (ix2 b f))) m) := by
  unfold val_main_v12
  refine (gather_row_clamp (by decide) gather_S3900000x8_S16384x39x1_S16384x39x8_2_0_n_n_0_2_18_wf x2 _ b f m).trans ?_
  refine congrArg (fun r => x2 (ix2 (clamp 3900000 (by decide) r) m)) ?_
  rw [val_main_v11_apply]
  have hi : idx_main_v11 (ix3 b f (0 : Fin 1)) = ix2 b f := by
    funext a; match a with | ⟨0, _⟩ => rfl | ⟨1, _⟩ => rfl
  rw [hi, rows_apply]

/-- The field's block offset at `(b, f, m)`: `256·f`. -/
theorem fieldOff_apply (b : Fin 16384) (f : Fin 39) (m : Fin 8) :
    val_main_v17 (F := Ideal) (ix3 b f m) = IntOp.muli (BitVec.ofNat 32 f.val) 256#32 := by
  rw [val_main_v17_apply, val_main_v16_apply, val_main_v15_apply, val_main_v13_apply, val_main_v14_apply,
    val_main_c_2_apply]

/-- The codebook row at `(b, f, m)`. -/
theorem cbRows_apply (b : Fin 16384) (f : Fin 39) (m : Fin 8) :
    clamp 9984 (by decide) (val_main_v26 (F := Ideal) x0 x2 (ix3 b f m))
      = cbN x2 (val_main_v5 (F := Ideal) x0 (ix2 b f)) f m := by
  unfold val_main_v26 val_main_v23 val_main_v25 val_main_v22 val_main_v24 val_main_c_3 val_main_c_4 cbN
  refine congrArg (clamp 9984 (by decide)) ?_
  refine (wrap_apply _ _ 9984#32 (val_main_v18 (F := Ideal) x0 x2) (ix3 b f m)).trans (congrArg (wrap 9984#32) ?_)
  show IntOp.addi (val_main_v12 (F := Ideal) x0 x2 (ix3 b f m)) (val_main_v17 (F := Ideal) (ix3 b f m)) = _
  rw [codes_apply, fieldOff_apply]

/-- The sub-vector word at `m`. -/
theorem subs_apply (m : Fin 8) :
    val_main_v31 (F := Ideal) (ix3 (0 : Fin 1) (0 : Fin 1) m) = wrap 8#32 (BitVec.ofNat 32 m.val) := by
  unfold val_main_v31 val_main_v28 val_main_v30 val_main_v27 val_main_v29 val_main_c_5 val_main_c_6
  refine (wrap_apply _ _ 8#32 (val_main_v21 (F := Ideal)) _).trans (congrArg (wrap 8#32) ?_)
  rw [val_main_v21_apply]
  rfl

/-- Component 0 of the pair at `(b, f, m)` is the codebook row word. -/
theorem pairs_row (b : Fin 16384) (f : Fin 39) (m : Fin 8) :
    val_main_v35 (F := Ideal) x0 x2 (ix4 b f m (0 : Fin 2)) = val_main_v26 (F := Ideal) x0 x2 (ix3 b f m) := by
  unfold val_main_v35
  refine (concatenate_pair_apply_left 3 _ _ concatenates_S16384x39x8x1_S16384x39x8x1_S16384x39x8x2_d3
    (ix4 b f m (0 : Fin 2)) rfl (ix4 b f m (0 : Fin 1))
    (fun k => by match k with | ⟨0, _⟩ => rfl | ⟨1, _⟩ => rfl | ⟨2, _⟩ => rfl | ⟨3, _⟩ => rfl)).trans ?_
  rw [val_main_v33_apply]
  refine congrArg (val_main_v26 (F := Ideal) x0 x2) ?_
  funext a; match a with | ⟨0, _⟩ => rfl | ⟨1, _⟩ => rfl | ⟨2, _⟩ => rfl

/-- Component 1 of the pair at `(b, f, m)` is the sub-vector word. -/
theorem pairs_sub (b : Fin 16384) (f : Fin 39) (m : Fin 8) :
    val_main_v35 (F := Ideal) x0 x2 (ix4 b f m (1 : Fin 2)) = val_main_v31 (F := Ideal) (ix3 (0 : Fin 1) (0 : Fin 1) m) := by
  unfold val_main_v35
  refine (concatenate_pair_apply_right 3 _ _ concatenates_S16384x39x8x1_S16384x39x8x1_S16384x39x8x2_d3
    (ix4 b f m (1 : Fin 2)) rfl rfl (ix4 b f m (0 : Fin 1))
    (fun k hk => by
      match k with
      | ⟨0, _⟩ => rfl
      | ⟨1, _⟩ => rfl
      | ⟨2, _⟩ => rfl
      | ⟨3, _⟩ => exact absurd rfl hk) rfl).trans ?_
  rw [val_main_v34_apply, val_main_v32_apply]
  refine congrArg (val_main_v31 (F := Ideal)) ?_
  funext a; match a with | ⟨0, _⟩ => rfl | ⟨1, _⟩ => rfl | ⟨2, _⟩ => rfl

/-- The looked-up sub-vector entry at `(b, f, m, q)`. -/
theorem emb4_apply (b : Fin 16384) (f : Fin 39) (m : Fin 8) (q : Fin 16) :
    val_main_v36 (F := Ideal) x0 x1 x2 (ix4 b f m q)
      = (val_main_v19 (F := Ideal) x1) (ix3 (cbN x2 (val_main_v5 (F := Ideal) x0 (ix2 b f)) f m) (subN m) q) := by
  unfold val_main_v36
  refine (gather_pair_clamp (by decide) (by decide)
    gather_S9984x8x16_S16384x39x8x2_S16384x39x8x16_3_01_n_n_01_3_1116_wf _ (val_main_v35 (F := Ideal) x0 x2) b f m q).trans ?_
  rw [pairs_row, pairs_sub, cbRows_apply, subs_apply]
  rfl

/-- Entry `(b, f, d)` of the reference's embedding array is the lookup chain run from the id word of `(b, f)`. -/
theorem emb_apply (b : Fin 16384) (f : Fin 39) (d : Fin 128) :
    val_main_v37 (F := Ideal) x0 x1 x2 (ix3 b f d)
      = embAt (val_main_v19 (F := Ideal) x1) x2 (val_main_v5 (F := Ideal) x0 (ix2 b f)) f d := by
  unfold val_main_v37 embAt
  refine (shapeCast_apply _ shapeCasts_S16384x39x8x16_S16384x39x128 (ix3 b f d) (ix4 b f (subOf d) (posOf d)) ?_).trans
    (emb4_apply x0 x1 x2 b f (subOf d) (posOf d))
  rewrite [Shape.rowMajor_val_four, Shape.rowMajor_val_three]
  have hf : f.val < 39 := f.isLt
  have hb : b.val < 16384 := b.isLt
  have hd : d.val < 128 := d.isLt
  show ((b.val * 39 + f.val) * 8 + d.val / 16) * 16 + d.val % 16 = (b.val * 39 + f.val) * 128 + d.val
  omega

end Cert.ReferenceIdeal.HostRead

end
-- ==== Proof.FmSpec.lean ====
/-
  The factorization-machine score of one batch row, over the extended reals.

  For a row with embeddings `E f d` (39 fields, 128 coordinates) the pairwise-interaction term is
  one half of the sum over the coordinates of (the square of the sum over the fields) minus (the sum over the fields
  of the squares); the linear term is the sum over the fields of the row's looked-up weights. The two programs add the
  pairwise term, the linear term and the bias in different orders; addition of extended reals is commutative and
  associative, so the totals agree (`total_comm`), with no finiteness needed.
-/
import Idealize.ShloMosaic.PureOps.Ideal
import Idealize.ShloMosaic.Lib.ValueIdx

noncomputable section

open scoped BigOperators

namespace Cert.FmSpec

open Idealize.ShloMosaic

/-- One half, as the f32 word both programs print, read at the ideal instance (never evaluated: the same word on both sides). -/
abbrev half : EReal := Ideal.ofBits .f32 0x3F000000#32

/-- The pairwise-interaction term of one row: `half * ∑ d, ((∑ f, E f d)² − ∑ f, (E f d)²)`. -/
def pairTerm (E : Fin 39 → Fin 128 → EReal) : EReal :=
  half * ∑ d : Fin 128, ((∑ f : Fin 39, E f d) * (∑ f : Fin 39, E f d) - ∑ f : Fin 39, E f d * E f d)

/-- The linear term of one row: the sum over the fields of the looked-up weights. -/
def linTerm (L : Fin 39 → EReal) : EReal := ∑ f : Fin 39, L f

/-- Pairwise term plus linear term, then the bias, is linear term plus bias, then the pairwise term. -/
theorem total_comm (p l b : EReal) : (p + l) + b = (l + b) + p := by
  rw [add_comm p l, add_assoc, add_comm p b, ← add_assoc]

end Cert.FmSpec

end
-- ==== Proof.RefValue.lean ====
/-
  The reference's float side, read at one batch row.

  After the two table look-ups the reference forms, per row, the linear term (the sum over the 39 fields of the
  looked-up weights) plus the bias, and adds to it the pairwise-interaction term: one half of the sum over the 128
  coordinates of (the square of the field sum) minus (the field sum of the squares). Each of its sums starts from
  the constant zero, which disappears over the extended reals.
-/
import proofs.«167912_j40759239639136_2_alg».proof.Proof.Gen.ReferenceIdeal.Read
import proofs.«167912_j40759239639136_2_alg».proof.Proof.FmSpec
import Idealize.ShloMosaic.Lib.ValueIdx
import Idealize.ShloMosaic.Lib.Pipeline.Value

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo

/-- The bias as a scalar: the one-element array's entry. -/
theorem bias_apply (x4 : (⟨S1, .f32⟩ : BufTy).Contents (Elt Ideal)) (i : S_.Idx) :
    Read.val_main_v54 (F := Ideal) x4 i = x4 (ValueIdx.ix1 0) := by
  unfold Read.val_main_v54
  refine shapeCast_apply x4 shapeCasts_S1_S_ i (ValueIdx.ix1 0) ?_
  have h1 : ((S1.rowMajor (ValueIdx.ix1 0)).val) < 1 := (S1.rowMajor (ValueIdx.ix1 0)).isLt
  have h2 : ((S_.rowMajor i).val) < 1 := (S_.rowMajor i).isLt
  show (S1.rowMajor (ValueIdx.ix1 0)).val = (S_.rowMajor i).val
  omega

/-- The linear term's reduction index at row `b`, field `k`. -/
theorem idx_lin (b : Fin 16384) (k : Fin 39) : idx_main_v53 (ValueIdx.ix1 b) k = ValueIdx.ix2 b k :=
  funext fun a => Fin.ext (by match a with | ⟨0, _⟩ => rfl | ⟨1, _⟩ => rfl)

/-- The field sum's reduction index at row `b`, coordinate `d`, field `f`. -/
theorem idx_sum (b : Fin 16384) (d : Fin 128) (f : Fin 39) :
    idx_main_v38 (idx_main_v43 (ValueIdx.ix1 b) d) f = ValueIdx.ix3 b f d :=
  funext fun a => Fin.ext (by match a with | ⟨0, _⟩ => rfl | ⟨1, _⟩ => rfl | ⟨2, _⟩ => rfl)

/-- The field sum of squares' reduction index at row `b`, coordinate `d`, field `f`. -/
theorem idx_sq (b : Fin 16384) (d : Fin 128) (f : Fin 39) :
    idx_main_v41 (idx_main_v43 (ValueIdx.ix1 b) d) f = ValueIdx.ix3 b f d :=
  funext fun a => Fin.ext (by match a with | ⟨0, _⟩ => rfl | ⟨1, _⟩ => rfl | ⟨2, _⟩ => rfl)

theorem ref_apply (x0 : (⟨S16384x39, .i32⟩ : BufTy).Contents (Elt Ideal)) (x1 : (⟨S9984x128, .f32⟩ : BufTy).Contents (Elt Ideal))
    (x2 : (⟨S3900000x8, .i32⟩ : BufTy).Contents (Elt Ideal)) (x3 : (⟨S3900000, .f32⟩ : BufTy).Contents (Elt Ideal))
    (x4 : (⟨S1, .f32⟩ : BufTy).Contents (Elt Ideal)) (b : Fin 16384) :
    Read.val_main_v57 (F := Ideal) x0 x1 x2 x3 x4 (ValueIdx.ix1 b)
      = (Cert.FmSpec.linTerm (fun f => Read.val_main_v52 (F := Ideal) x0 x3 (ValueIdx.ix2 b f)) + x4 (ValueIdx.ix1 0))
        + Cert.FmSpec.pairTerm (fun f d => Read.val_main_v37 (F := Ideal) x0 x1 x2 (ValueIdx.ix3 b f d)) := by
  rw [val_main_v57_apply, val_main_v56_apply, val_main_v45_apply, val_main_v55_apply, bias_apply, val_main_v53_apply,
    val_main_v44_apply, val_main_v43_apply]
  simp only [val_main_v42_apply, val_main_v39_apply, val_main_v38_apply, val_main_v41_apply, val_main_v40_apply,
    val_main_cst_apply, val_main_cst_7_apply, val_main_cst_8_apply, val_main_cst_9_apply, val_main_cst_12_apply,
    Ideal.ofBits_def, Ideal.ofBits_zero_f32, zero_add, Ideal.addf_def, Ideal.mulf_def, Ideal.subf_def,
    idx_lin, idx_sum, idx_sq]
  rfl

end Cert.ReferenceIdeal.RefValue

end
-- ==== Proof.BodyValue.lean ====
/-
  The value the kernel body stores for one batch row: the pairwise-interaction term of the row's embeddings plus
  the linear term of the row's looked-up weights.
-/
import proofs.«167912_j40759239639136_2_alg».proof.Proof.Gen.KernelIdeal.Frame
import proofs.«167912_j40759239639136_2_alg».proof.Proof.FmSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyValue

open Idealize.ShloMosaic Idealize.ShloMosaic.ValueIdx Cert.KernelIdeal.Gen

/-- A [1,1024,128] slab viewed as [1024,128] and widened reads, at (r, d), the slab at (0, r, d). -/
theorem slab_apply (v : Vec Ideal S1x1024x128 .bf16) (r : Fin 1024) (d : Fin 128) :
    extf (F := Ideal) .f32 (shapeCast S1024x128 v shapeCasts_S1x1024x128_S1024x128) bitsLt_bf16_f32 (ix2 r d)
      = v (ix3 0 r d) := by
  rw [extf_apply]
  refine (shapeCast_dropUnit_apply ![1024, 128] v shapeCasts_S1x1024x128_S1024x128 (ix2 r d)).trans ?_
  congr 1
  funext a
  match a with
  | ⟨0, _⟩ => rfl
  | ⟨1, _⟩ => rfl
  | ⟨2, _⟩ => rfl

/-- The load of slab `n` of the [39,1024,128] block reads, at (0, r, d), the block at (n, r, d). -/
theorem ld_slab (x0 : Vec Ideal S39x1024x128 .bf16) (n : Nat) (hn : n < 39)
    (inb : ∀ a, (![n, 0, 0] : Fin 3 → Nat) a + S1x1024x128.size a ≤ S39x1024x128.size a) (r : Fin 1024) (d : Fin 128) :
    View.ld x0 (Rect.unit (s := S39x1024x128) ![n, 0, 0] S1x1024x128.size inb) (ix3 0 r d) = x0 (ix3 ⟨n, hn⟩ r d) := by
  show x0 _ = x0 _
  congr 1
  funext a
  match a with
  | ⟨0, _⟩ => exact Fin.ext (by show n + 1 * 0 = n; omega)
  | ⟨1, _⟩ => exact Fin.ext (by show 0 + 1 * r.val = r.val; omega)
  | ⟨2, _⟩ => exact Fin.ext (by show 0 + 1 * d.val = d.val; omega)

/-- The running sum of the first six fields, from zero, at (r, d). -/
theorem pay8_apply (v0 v1 v2 v3 v4 v5 : Vec Ideal S1x1024x128 .bf16) (r : Fin 1024) (d : Fin 128) :
    k0_pay8 (F := Ideal) v0 v1 v2 v3 v4 v5 (ix2 r d)
      = 0 + v0 (ix3 0 r d) + v1 (ix3 0 r d) + v2 (ix3 0 r d) + v3 (ix3 0 r d) + v4 (ix3 0 r d) + v5 (ix3 0 r d) := by
  simp only [k0_pay8, k0_pay2, k0_pay3, k0_pay4, k0_pay5, k0_pay6, k0_pay7, addf_apply, broadcast_apply, slab_apply]
  rw [show (Scalar.ofBits .f32 0x00000000#32 : Ideal .f32) = 0 from Ideal.ofBits_zero_f32]

/-- The running sum of the first six fields' squares, from zero, at (r, d). -/
theorem pay9_apply (v0 v1 v2 v3 v4 v5 : Vec Ideal S1x1024x128 .bf16) (r : Fin 1024) (d : Fin 128) :
    k0_pay9 (F := Ideal) v0 v1 v2 v3 v4 v5 (ix2 r d)
      = 0 + v0 (ix3 0 r d) * v0 (ix3 0 r d) + v1 (ix3 0 r d) * v1 (ix3 0 r d) + v2 (ix3 0 r d) * v2 (ix3 0 r d)
          + v3 (ix3 0 r d) * v3 (ix3 0 r d) + v4 (ix3 0 r d) * v4 (ix3 0 r d) + v5 (ix3 0 r d) * v5 (ix3 0 r d) := by
  simp only [k0_pay9, k0_pay2, k0_pay3, k0_pay4, k0_pay5, k0_pay6, k0_pay7, addf_apply, mulf_apply, broadcast_apply, slab_apply]
  rw [show (Scalar.ofBits .f32 0x00000000#32 : Ideal .f32) = 0 from Ideal.ofBits_zero_f32]

/-- Over row `r`, the index with coordinate `k` put back on the summed axis is (r, k): the [1024,39] block. -/
theorem lift_row39 (h : S1024x39.Reduces [1] S1024) (r : Fin 1024) (k : Fin 39) : h.lift (ix1 r) k = ix2 r k := by
  funext c
  match c with
  | ⟨0, _⟩ => rfl
  | ⟨1, _⟩ => rfl

/-- The same for the [1024,128] block. -/
theorem lift_row128 (h : S1024x128.Reduces [1] S1024) (r : Fin 1024) (k : Fin 128) : h.lift (ix1 r) k = ix2 r k := by
  funext c
  match c with
  | ⟨0, _⟩ => rfl
  | ⟨1, _⟩ => rfl

/-- The last payload: one half of the lane sum, plus the row's sum of the looked-up weights. -/
theorem pay1_apply (V : FVec Ideal S1024 .f32) (X : Vec Ideal S1024x39 .f32) (r : Fin 1024) :
    k0_pay1 (F := Ideal) V X (ix1 r) = Cert.FmSpec.half * V (ix1 r) + ∑ f : Fin 39, X (ix2 r f) := by
  show Cert.FmSpec.half * V (ix1 r) + multiReduction (F := Ideal) .add [1] S1024 (shapeCast S1024x39 X shapeCasts_S1024x39_S1024x39) 0x00000000#32 reduces_S1024x39_S1024 (.inl rfl) rfl (ix1 r) = _
  rw [shapeCast_self]
  refine congrArg (Cert.FmSpec.half * V (ix1 r) + ·) ?_
  refine (Ideal.multiReduction_add_single (s := S1024x39) (t := S1024) (a := 1) X 0x00000000#32 reduces_S1024x39_S1024 _ _ (ix1 r)).trans ?_
  refine Finset.sum_congr rfl (fun (k : Fin 39) _ => ?_)
  exact congrArg X (lift_row39 _ r k)

/-- A single field's widened slab at (r, d). -/
theorem pay17_apply (v : Vec Ideal S1x1024x128 .bf16) (r : Fin 1024) (d : Fin 128) :
    k0_pay17 (F := Ideal) v (ix2 r d) = v (ix3 0 r d) := by
  simp only [k0_pay17, slab_apply]

/-- The same for the field read alone in the fifth part. -/
theorem pay43_apply (v : Vec Ideal S1x1024x128 .bf16) (r : Fin 1024) (d : Fin 128) :
    k0_pay43 (F := Ideal) v (ix2 r d) = v (ix3 0 r d) := by
  simp only [k0_pay43, slab_apply]

/-! Each later part adds its fields to the running sum `A`, or their squares to the running sum of squares `A`
    (a part may also receive one already widened field `B`, whose square it adds first). -/

theorem pay18_apply (A : FVec Ideal S1024x128 .f32) (v6 v7 v8 v9 v10 v11 v12 : Vec Ideal S1x1024x128 .bf16) (r : Fin 1024) (d : Fin 128) :
    k0_pay18 (F := Ideal) A v6 v7 v8 v9 v10 v11 v12 (ix2 r d)
      = A (ix2 r d) + v6 (ix3 0 r d) + v7 (ix3 0 r d) + v8 (ix3 0 r d) + v9 (ix3 0 r d) + v10 (ix3 0 r d) + v11 (ix3 0 r d) + v12 (ix3 0 r d) := by
  simp only [k0_pay18, k0_pay10, k0_pay11, k0_pay12, k0_pay13, k0_pay14, k0_pay15, k0_pay17, addf_apply, slab_apply]

theorem pay16_apply (A : FVec Ideal S1024x128 .f32) (v6 v7 v8 v9 v10 v11 : Vec Ideal S1x1024x128 .bf16) (r : Fin 1024) (d : Fin 128) :
    k0_pay16 (F := Ideal) A v6 v7 v8 v9 v10 v11 (ix2 r d)
      = A (ix2 r d) + v6 (ix3 0 r d) * v6 (ix3 0 r d) + v7 (ix3 0 r d) * v7 (ix3 0 r d) + v8 (ix3 0 r d) * v8 (ix3 0 r d) + v9 (ix3 0 r d) * v9 (ix3 0 r d) + v10 (ix3 0 r d) * v10 (ix3 0 r d) + v11 (ix3 0 r d) * v11 (ix3 0 r d) := by
  simp only [k0_pay16, k0_pay10, k0_pay11, k0_pay12, k0_pay13, k0_pay14, k0_pay15, addf_apply, mulf_apply, slab_apply]

theorem pay25_apply (A : FVec Ideal S1024x128 .f32) (v13 v14 v15 v16 v17 v18 : Vec Ideal S1x1024x128 .bf16) (r : Fin 1024) (d : Fin 128) :
    k0_pay25 (F := Ideal) A v13 v14 v15 v16 v17 v18 (ix2 r d)
      = A (ix2 r d) + v13 (ix3 0 r d) + v14 (ix3 0 r d) + v15 (ix3 0 r d) + v16 (ix3 0 r d) + v17 (ix3 0 r d) + v18 (ix3 0 r d) := by
  simp only [k0_pay25, k0_pay19, k0_pay20, k0_pay21, k0_pay22, k0_pay23, k0_pay24, addf_apply, slab_apply]

theorem pay26_apply (A B : FVec Ideal S1024x128 .f32) (v13 v14 v15 v16 v17 v18 : Vec Ideal S1x1024x128 .bf16) (r : Fin 1024) (d : Fin 128) :
    k0_pay26 (F := Ideal) A B v13 v14 v15 v16 v17 v18 (ix2 r d)
      = A (ix2 r d) + B (ix2 r d) * B (ix2 r d) + v13 (ix3 0 r d) * v13 (ix3 0 r d) + v14 (ix3 0 r d) * v14 (ix3 0 r d) + v15 (ix3 0 r d) * v15 (ix3 0 r d) + v16 (ix3 0 r d) * v16 (ix3 0 r d) + v17 (ix3 0 r d) * v17 (ix3 0 r d) + v18 (ix3 0 r d) * v18 (ix3 0 r d) := by
  simp only [k0_pay26, k0_pay19, k0_pay20, k0_pay21, k0_pay22, k0_pay23, k0_pay24, addf_apply, mulf_apply, slab_apply]

theorem pay34_apply (A : FVec Ideal S1024x128 .f32) (v19 v20 v21 v22 v23 v24 v25 : Vec Ideal S1x1024x128 .bf16) (r : Fin 1024) (d : Fin 128) :
    k0_pay34 (F := Ideal) A v19 v20 v21 v22 v23 v24 v25 (ix2 r d)
      = A (ix2 r d) + v19 (ix3 0 r d) + v20 (ix3 0 r d) + v21 (ix3 0 r d) + v22 (ix3 0 r d) + v23 (ix3 0 r d) + v24 (ix3 0 r d) + v25 (ix3 0 r d) := by
  simp only [k0_pay34, k0_pay27, k0_pay28, k0_pay29, k0_pay30, k0_pay31, k0_pay32, k0_pay33, addf_apply, slab_apply]

theorem pay35_apply (A : FVec Ideal S1024x128 .f32) (v19 v20 v21 v22 v23 v24 v25 : Vec Ideal S1x1024x128 .bf16) (r : Fin 1024) (d : Fin 128) :
    k0_pay35 (F := Ideal) A v19 v20 v21 v22 v23 v24 v25 (ix2 r d)
      = A (ix2 r d) + v19 (ix3 0 r d) * v19 (ix3 0 r d) + v20 (ix3 0 r d) * v20 (ix3 0 r d) + v21 (ix3 0 r d) * v21 (ix3 0 r d) + v22 (ix3 0 r d) * v22 (ix3 0 r d) + v23 (ix3 0 r d) * v23 (ix3 0 r d) + v24 (ix3 0 r d) * v24 (ix3 0 r d) + v25 (ix3 0 r d) * v25 (ix3 0 r d) := by
  simp only [k0_pay35, k0_pay27, k0_pay28, k0_pay29, k0_pay30, k0_pay31, k0_pay32, k0_pay33, addf_apply, mulf_apply, slab_apply]

theorem pay44_apply (A : FVec Ideal S1024x128 .f32) (v26 v27 v28 v29 v30 v31 v32 : Vec Ideal S1x1024x128 .bf16) (r : Fin 1024) (d : Fin 128) :
    k0_pay44 (F := Ideal) A v26 v27 v28 v29 v30 v31 v32 (ix2 r d)
      = A (ix2 r d) + v26 (ix3 0 r d) + v27 (ix3 0 r d) + v28 (ix3 0 r d) + v29 (ix3 0 r d) + v30 (ix3 0 r d) + v31 (ix3 0 r d) + v32 (ix3 0 r d) := by
  simp only [k0_pay44, k0_pay36, k0_pay37, k0_pay38, k0_pay39, k0_pay40, k0_pay41, k0_pay43, addf_apply, slab_apply]

theorem pay42_apply (A : FVec Ideal S1024x128 .f32) (v26 v27 v28 v29 v30 v31 : Vec Ideal S1x1024x128 .bf16) (r : Fin 1024) (d : Fin 128) :
    k0_pay42 (F := Ideal) A v26 v27 v28 v29 v30 v31 (ix2 r d)
      = A (ix2 r d) + v26 (ix3 0 r d) * v26 (ix3 0 r d) + v27 (ix3 0 r d) * v27 (ix3 0 r d) + v28 (ix3 0 r d) * v28 (ix3 0 r d) + v29 (ix3 0 r d) * v29 (ix3 0 r d) + v30 (ix3 0 r d) * v30 (ix3 0 r d) + v31 (ix3 0 r d) * v31 (ix3 0 r d) := by
  simp only [k0_pay42, k0_pay36, k0_pay37, k0_pay38, k0_pay39, k0_pay40, k0_pay41, addf_apply, mulf_apply, slab_apply]

/-- The lane sum of (the square of the field sum) minus (the sum of the squares), at row `r`. -/
theorem pay45_apply (A B C : FVec Ideal S1024x128 .f32) (v33 v34 v35 v36 v37 v38 : Vec Ideal S1x1024x128 .bf16) (r : Fin 1024) :
    k0_pay45 (F := Ideal) A B C v33 v34 v35 v36 v37 v38 (ix1 r)
      = ∑ d : Fin 128, ((C (ix2 r d) + v33 (ix3 0 r d) + v34 (ix3 0 r d) + v35 (ix3 0 r d) + v36 (ix3 0 r d) + v37 (ix3 0 r d) + v38 (ix3 0 r d)) * (C (ix2 r d) + v33 (ix3 0 r d) + v34 (ix3 0 r d) + v35 (ix3 0 r d) + v36 (ix3 0 r d) + v37 (ix3 0 r d) + v38 (ix3 0 r d))
          - (A (ix2 r d) + B (ix2 r d) * B (ix2 r d) + v33 (ix3 0 r d) * v33 (ix3 0 r d) + v34 (ix3 0 r d) * v34 (ix3 0 r d) + v35 (ix3 0 r d) * v35 (ix3 0 r d) + v36 (ix3 0 r d) * v36 (ix3 0 r d) + v37 (ix3 0 r d) * v37 (ix3 0 r d) + v38 (ix3 0 r d) * v38 (ix3 0 r d))) := by
  unfold k0_pay45
  refine (Ideal.multiReduction_add_single (s := S1024x128) (t := S1024) (a := 1) _ 0x00000000#32 reduces_S1024x128_S1024 _ _ (ix1 r)).trans ?_
  refine Finset.sum_congr rfl (fun (d : Fin 128) _ => ?_)
  rw [lift_row128 _ r d]
  simp only [subf_apply, addf_apply, mulf_apply, slab_apply]

/-- A sum over the 39 fields, written out from zero, field by field. -/
theorem sum39 (g : Fin 39 → EReal) :
    ∑ f : Fin 39, g f = 0 + g ⟨0, by omega⟩ + g ⟨1, by omega⟩ + g ⟨2, by omega⟩ + g ⟨3, by omega⟩ + g ⟨4, by omega⟩ + g ⟨5, by omega⟩ + g ⟨6, by omega⟩ + g ⟨7, by omega⟩ + g ⟨8, by omega⟩ + g ⟨9, by omega⟩ + g ⟨10, by omega⟩ + g ⟨11, by omega⟩ + g ⟨12, by omega⟩ + g ⟨13, by omega⟩ + g ⟨14, by omega⟩ + g ⟨15, by omega⟩ + g ⟨16, by omega⟩ + g ⟨17, by omega⟩ + g ⟨18, by omega⟩ + g ⟨19, by omega⟩ + g ⟨20, by omega⟩ + g ⟨21, by omega⟩ + g ⟨22, by omega⟩ + g ⟨23, by omega⟩ + g ⟨24, by omega⟩ + g ⟨25, by omega⟩ + g ⟨26, by omega⟩ + g ⟨27, by omega⟩ + g ⟨28, by omega⟩ + g ⟨29, by omega⟩ + g ⟨30, by omega⟩ + g ⟨31, by omega⟩ + g ⟨32, by omega⟩ + g ⟨33, by omega⟩ + g ⟨34, by omega⟩ + g ⟨35, by omega⟩ + g ⟨36, by omega⟩ + g ⟨37, by omega⟩ + g ⟨38, by omega⟩ := by
  simp only [Fin.sum_univ_castSucc, Fin.sum_univ_zero]
  rfl

/-- The body's output block at row `r`: the pairwise term of the row's embeddings plus the linear term of its weights. -/
theorem out0_2_apply (x0 : Vec Ideal S39x1024x128 .bf16) (x1 : Vec Ideal S1024x39 .f32) (r : Fin 1024) :
    Cert.KernelIdeal.Gen.out0_2 (F := Ideal) x0 x1 (ValueIdx.ix1 r)
      = Cert.FmSpec.pairTerm (fun f d => x0 (ValueIdx.ix3 f r d)) + Cert.FmSpec.linTerm (fun f => x1 (ValueIdx.ix2 r f)) := by
  have hz1 : (![0] : Fin 1 → Nat) = fun _ => 0 := by
    funext a; match a with | ⟨0, _⟩ => rfl
  have hz2 : (![0, 0] : Fin 2 → Nat) = fun _ => 0 := by
    funext a; match a with | ⟨0, _⟩ => rfl | ⟨1, _⟩ => rfl
  unfold out0_2
  rw [View.canon_unit_zero hz1, pay1_apply, pay45_apply, View.ld_unit_zero (S := S1024x39) hz2]
  unfold Cert.FmSpec.pairTerm Cert.FmSpec.linTerm
  refine congrArg₂ (· + ·) (congrArg (Cert.FmSpec.half * ·) ?_) rfl
  refine Finset.sum_congr rfl (fun d _ => ?_)
  rw [pay44_apply, pay34_apply, pay25_apply, pay18_apply, pay8_apply, pay42_apply, pay35_apply, pay26_apply,
    pay16_apply, pay9_apply, pay17_apply, pay43_apply]
  rw [ld_slab x0 0 (by omega) inb_S39x1024x128_S1x1024x128_0_0_0 r d,
    ld_slab x0 1 (by omega) inb_S39x1024x128_S1x1024x128_1_0_0 r d,
    ld_slab x0 2 (by omega) inb_S39x1024x128_S1x1024x128_2_0_0 r d,
    ld_slab x0 3 (by omega) inb_S39x1024x128_S1x1024x128_3_0_0 r d,
    ld_slab x0 4 (by omega) inb_S39x1024x128_S1x1024x128_4_0_0 r d,
    ld_slab x0 5 (by omega) inb_S39x1024x128_S1x1024x128_5_0_0 r d,
    ld_slab x0 6 (by omega) inb_S39x1024x128_S1x1024x128_6_0_0 r d,
    ld_slab x0 7 (by omega) inb_S39x1024x128_S1x1024x128_7_0_0 r d,
    ld_slab x0 8 (by omega) inb_S39x1024x128_S1x1024x128_8_0_0 r d,
    ld_slab x0 9 (by omega) inb_S39x1024x128_S1x1024x128_9_0_0 r d,
    ld_slab x0 10 (by omega) inb_S39x1024x128_S1x1024x128_10_0_0 r d,
    ld_slab x0 11 (by omega) inb_S39x1024x128_S1x1024x128_11_0_0 r d,
    ld_slab x0 12 (by omega) inb_S39x1024x128_S1x1024x128_12_0_0 r d,
    ld_slab x0 13 (by omega) inb_S39x1024x128_S1x1024x128_13_0_0 r d,
    ld_slab x0 14 (by omega) inb_S39x1024x128_S1x1024x128_14_0_0 r d,
    ld_slab x0 15 (by omega) inb_S39x1024x128_S1x1024x128_15_0_0 r d,
    ld_slab x0 16 (by omega) inb_S39x1024x128_S1x1024x128_16_0_0 r d,
    ld_slab x0 17 (by omega) inb_S39x1024x128_S1x1024x128_17_0_0 r d,
    ld_slab x0 18 (by omega) inb_S39x1024x128_S1x1024x128_18_0_0 r d,
    ld_slab x0 19 (by omega) inb_S39x1024x128_S1x1024x128_19_0_0 r d,
    ld_slab x0 20 (by omega) inb_S39x1024x128_S1x1024x128_20_0_0 r d,
    ld_slab x0 21 (by omega) inb_S39x1024x128_S1x1024x128_21_0_0 r d,
    ld_slab x0 22 (by omega) inb_S39x1024x128_S1x1024x128_22_0_0 r d,
    ld_slab x0 23 (by omega) inb_S39x1024x128_S1x1024x128_23_0_0 r d,
    ld_slab x0 24 (by omega) inb_S39x1024x128_S1x1024x128_24_0_0 r d,
    ld_slab x0 25 (by omega) inb_S39x1024x128_S1x1024x128_25_0_0 r d,
    ld_slab x0 26 (by omega) inb_S39x1024x128_S1x1024x128_26_0_0 r d,
    ld_slab x0 27 (by omega) inb_S39x1024x128_S1x1024x128_27_0_0 r d,
    ld_slab x0 28 (by omega) inb_S39x1024x128_S1x1024x128_28_0_0 r d,
    ld_slab x0 29 (by omega) inb_S39x1024x128_S1x1024x128_29_0_0 r d,
    ld_slab x0 30 (by omega) inb_S39x1024x128_S1x1024x128_30_0_0 r d,
    ld_slab x0 31 (by omega) inb_S39x1024x128_S1x1024x128_31_0_0 r d,
    ld_slab x0 32 (by omega) inb_S39x1024x128_S1x1024x128_32_0_0 r d,
    ld_slab x0 33 (by omega) inb_S39x1024x128_S1x1024x128_33_0_0 r d,
    ld_slab x0 34 (by omega) inb_S39x1024x128_S1x1024x128_34_0_0 r d,
    ld_slab x0 35 (by omega) inb_S39x1024x128_S1x1024x128_35_0_0 r d,
    ld_slab x0 36 (by omega) inb_S39x1024x128_S1x1024x128_36_0_0 r d,
    ld_slab x0 37 (by omega) inb_S39x1024x128_S1x1024x128_37_0_0 r d,
    ld_slab x0 38 (by omega) inb_S39x1024x128_S1x1024x128_38_0_0 r d]
  rw [sum39 (fun f => x0 (ix3 f r d)), sum39 (fun f => x0 (ix3 f r d) * x0 (ix3 f r d))]

end Cert.KernelIdeal.BodyValue

end
-- ==== Proof.KernelRun.lean ====
/-
  The kernel's run with its result named.

  The grid has 16 points; point `t` works on batch rows `1024 t … 1024 t + 1023`: it reads those rows of the
  embeddings (all 39 fields, all 128 coordinates) and of the looked-up weights, and writes those rows of the output.
  For each row the body leaves the pairwise-interaction term plus the linear term, so after the last point the output
  array holds that sum at every row; the one host stretch after the region adds the bias to every row.
-/
import proofs.«167912_j40759239639136_2_alg».proof.Proof.Gen.KernelIdeal.Frame
import proofs.«167912_j40759239639136_2_alg».proof.Proof.BodyValue
import proofs.«167912_j40759239639136_2_alg».proof.Proof.FmSpec
import Idealize.ShloMosaic.Lib.Pipeline.Value
import Idealize.ShloMosaic.Lib.ValueIdx
import Idealize.ShloMosaic.Lib.Tactic

noncomputable section

open scoped BigOperators
open Idealize.ShloMosaic Idealize.ShloMosaic.TcCoe Idealize.SL.Sem
open Idealize.ShloMosaic.Pipeline (Dat)

namespace Cert.KernelIdeal.KernelRun

open Cert.KernelIdeal Cert.KernelIdeal.Gen

variable (m : (ℓ : Loc nD τ sig) → Buf (Elt Ideal) ℓ) (ρ : Dev nD → PrngReg)

/-- The score of every batch row before the bias: pairwise-interaction term plus linear term. -/
def rowScore (emb : Vec Ideal S39x16384x128 .bf16) (lin : Vec Ideal S16384x39 .f32) : Vec Ideal S16384 .f32 :=
  fun j => Cert.FmSpec.pairTerm (fun f d => emb (ValueIdx.ix3 f (j 0) d)) + Cert.FmSpec.linTerm (fun f => lin (ValueIdx.ix2 (j 0) f))

/-- The score of every batch row: pairwise-interaction term plus linear term, then the bias. -/
def score (emb : Vec Ideal S39x16384x128 .bf16) (lin : Vec Ideal S16384x39 .f32) (bias : Vec Ideal S1 .f32) : Vec Ideal S16384 .f32 :=
  fun j => (Cert.FmSpec.pairTerm (fun f d => emb (ValueIdx.ix3 f (j 0) d)) + Cert.FmSpec.linTerm (fun f => lin (ValueIdx.ix2 (j 0) f))) + bias (ValueIdx.ix1 0)

/-- Point `t` takes all fields and coordinates of row block `t` of the embeddings, row block `t` of the weights, and
    writes row block `t` of the output. -/
theorem idx_facts : ∀ t : Fin cfg0.N, win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 1) = t.val :=
  (by decide +kernel : ∀ t : Fin grid0.N, _)

theorem point_lt (t : Fin cfg0.N) : t.val < 16 := by
  have h : t.val < cfg0.N := t.isLt
  have e : cfg0.N = 16 := N_0
  omega

/-- Row `r` of point `t`'s block is row `1024 t + r` of the batch. -/
def row (t : Fin cfg0.N) (r : Fin 1024) : Fin 16384 := ⟨1024 * t.val + r.val, by have := point_lt t; have := r.isLt; omega⟩

/-- What the body leaves at a row of its output block, over any blocks. -/
theorem out_apply (x0 : Vec Ideal S39x1024x128 .bf16) (x1 : Vec Ideal S1024x39 .f32) (j : S1024.Idx) :
    out0_2 (F := Ideal) x0 x1 j
      = Cert.FmSpec.pairTerm (fun f d => x0 (ValueIdx.ix3 f (j 0) d)) + Cert.FmSpec.linTerm (fun f => x1 (ValueIdx.ix2 (j 0) f)) :=
  (congrArg (out0_2 (F := Ideal) x0 x1) (ValueIdx.eq_ix1 j)).trans (Cert.KernelIdeal.BodyValue.out0_2_apply x0 x1 (j 0))

/-- The embeddings' block at point `t` is the rows `1024 t …` of the embeddings. -/
theorem iblk0_apply (c : Dev nD) (t : Fin cfg0.N) (f : Fin 39) (r : Fin 1024) (d : Fin 128) :
    (iblk m c 0 t : Vec Ideal S39x1024x128 .bf16) (ValueIdx.ix3 f r d)
      = (V m c main_v39 : Vec Ideal S39x16384x128 .bf16) (ValueIdx.ix3 f (row t r) d) := by
  obtain ⟨e0, e1, e2, -, -, -⟩ := idx_facts t
  unfold iblk
  rw [View.read_apply]
  show (V m c main_v39 : Vec Ideal S39x16384x128 .bf16) (((cfg0.win 0).blk t).view.emb (ValueIdx.ix3 f r d)) = _
  refine congrArg (V m c main_v39 : Vec Ideal S39x16384x128 .bf16) (funext fun a => Fin.ext ?_)
  match a with
  | ⟨0, _⟩ => show win0_0.index t (0 : Fin 3) * 39 + 1 * f.val = f.val; omega
  | ⟨1, _⟩ => show win0_0.index t (1 : Fin 3) * 1024 + 1 * r.val = 1024 * t.val + r.val; omega
  | ⟨2, _⟩ => show win0_0.index t (2 : Fin 3) * 128 + 1 * d.val = d.val; omega

/-- The weights' block at point `t` is the rows `1024 t …` of the weights. -/
theorem iblk1_apply (c : Dev nD) (t : Fin cfg0.N) (r : Fin 1024) (f : Fin 39) :
    (iblk m c 1 t : Vec Ideal S1024x39 .f32) (ValueIdx.ix2 r f)
      = (V m c main_v46 : Vec Ideal S16384x39 .f32) (ValueIdx.ix2 (row t r) f) := by
  obtain ⟨-, -, -, e3, e4, -⟩ := idx_facts t
  unfold iblk
  rw [View.read_apply]
  show (V m c main_v46 : Vec Ideal S16384x39 .f32) (((cfg0.win 1).blk t).view.emb (ValueIdx.ix2 r f)) = _
  refine congrArg (V m c main_v46 : Vec Ideal S16384x39 .f32) (funext fun a => Fin.ext ?_)
  match a with
  | ⟨0, _⟩ => show win0_1.index t (0 : Fin 2) * 1024 + 1 * r.val = 1024 * t.val + r.val; omega
  | ⟨1, _⟩ => show win0_1.index t (1 : Fin 2) * 39 + 1 * f.val = f.val; omega

/-- Row `j` of point `t`'s output block is row `1024 t + j` of the output. -/
theorem emb2_apply (t : Fin cfg0.N) (j : S1024.Idx) :
    (((cfg0.win 2).blk t).view.emb j : S16384.Idx) = ValueIdx.ix1 (row t (j 0)) := by
  obtain ⟨-, -, -, -, -, e5⟩ := idx_facts t
  funext a
  apply Fin.ext
  match a with
  | ⟨0, _⟩ => show win0_2.index t (0 : Fin 1) * 1024 + 1 * (j 0).val = 1024 * t.val + (j 0).val; omega

/-- WHAT POINT `t` WRITES BACK is block `t` of the row scores of the embeddings and weights as the region finds them. -/
theorem flushed_eq (c : Dev nD) (t : Fin cfg0.N) :
    (dats m 0 c).flushed 2 t = ((cfg0.win 2).blk t).view.read (Elt Ideal) (rowScore (V m c main_v39) (V m c main_v46)) := by
  show (cfg0.win 2).cut (grid0.coords t) ((dats m 0 c).after 2 t) = _
  rw [after0_2]
  funext j
  show out0_2 (F := Ideal) (iblk m c 0 t) (iblk m c 1 t) j = rowScore (V m c main_v39) (V m c main_v46) (((cfg0.win 2).blk t).view.emb j)
  refine (out_apply (iblk m c 0 t) (iblk m c 1 t) j).trans ?_
  rw [emb2_apply t j]
  unfold rowScore
  exact congrArg₂ (· + ·)
    (congrArg Cert.FmSpec.pairTerm (funext fun f => funext fun d => iblk0_apply m c t f (j 0) d))
    (congrArg Cert.FmSpec.linTerm (funext fun f => iblk1_apply m c t (j 0) f))

/-- An index of the output is in point `t`'s block iff its row is among the block's 1024 rows. -/
theorem mem_blk (t : Fin cfg0.N) (i : S16384.Idx) :
    i ∈ ((cfg0.win 2).blk t).view.set ↔ ∀ a : Fin 1, win0_2.index t a * S1024.size a ≤ (i a).val ∧ (i a).val < win0_2.index t a * S1024.size a + S1024.size a := by
  show i ∈ ((View.whole main_v47).slice (win0_2.rect t)).set ↔ _
  rw [View.set_slice_whole, Rect.mem_set_unit]
  exact Iff.rfl

/-- Every row of the output is in the block of the point its row block names. -/
theorem cover (i : S16384.Idx) : ∃ t : Fin cfg0.N, (cfg0.win 2).flush t = true ∧ i ∈ ((cfg0.win 2).blk t).view.set := by
  have hi : (i 0).val < 16384 := (i 0).isLt
  refine ⟨⟨(i 0).val / 1024, by rw [show cfg0.N = 16 from N_0]; omega⟩, flush0_2 _, ?_⟩
  rw [mem_blk]
  intro a
  obtain ⟨-, -, -, -, -, e5⟩ := idx_facts ⟨(i 0).val / 1024, by rw [show cfg0.N = 16 from N_0]; omega⟩
  match a with
  | ⟨0, _⟩ =>
    show win0_2.index _ (0 : Fin 1) * 1024 ≤ (i 0).val ∧ (i 0).val < win0_2.index _ (0 : Fin 1) * 1024 + 1024
    rw [e5]
    show (i 0).val / 1024 * 1024 ≤ (i 0).val ∧ (i 0).val < (i 0).val / 1024 * 1024 + 1024
    omega

/-- THE OUTPUT ARRAY after the region: the row scores of the embeddings and weights as the region finds them. -/
theorem final (c : Dev nD) : (dats m 0 c).arrAt 2 cfg0.N = rowScore (V m c main_v39) (V m c main_v46) :=
  (dats m 0 c).arrAt_eq_of_cover 2 (rowScore (V m c main_v39) (V m c main_v46)) (fun t _ => flushed_eq m c t) cover

/-- The bias, made a scalar and spread over the rows, is the bias at every row. -/
theorem bias_apply (x4 : Vec Ideal S1 .f32) (j : S16384.Idx) :
    (broadcastInDim S16384 ![] bcast_S_S16384 (shapeCast S_ x4 shapeCasts_S1_S_) : Vec Ideal S16384 .f32) j = x4 (ValueIdx.ix1 0) := by
  refine (broadcastInDim_apply _ bcast_S_S16384 (shapeCast S_ x4 shapeCasts_S1_S_) j (fun a => a.elim0) (fun a => a.elim0)).trans ?_
  refine shapeCast_apply x4 shapeCasts_S1_S_ _ (ValueIdx.ix1 0) ?_
  have h1 : ((S1.rowMajor (ValueIdx.ix1 0)).val) < 1 := (S1.rowMajor (ValueIdx.ix1 0)).isLt
  have h2 : ((S_.rowMajor (fun a => a.elim0)).val) < 1 := (S_.rowMajor (fun a => a.elim0)).isLt
  show (S1.rowMajor (ValueIdx.ix1 0)).val = (S_.rowMajor (fun a => a.elim0)).val
  omega

/-- The host stretch after the region leaves the result at the row scores plus the bias. -/
theorem tail_eq (c : Dev nD) :
    Pipeline.afterTail₀ cfgs (dats m) 0 (V0 m) [hostOps1] c main_v50
      = score (V m c main_v39) (V m c main_v46) (m ((c.tc : Thread nD τ).loc main_arg4)) := by
  unfold Pipeline.afterTail₀
  show StableHlo.after hostOps1 _ (Proc.devRef .tc main_v50) = _
  after_results
  have hout : Pipeline.withArrays (cfgs 0).spec c (V0 m c) (fun w => (dats m 0 c).arrAt w (cfgs 0).N) (Proc.devRef .tc main_v47)
      = rowScore (V m c main_v39) (V m c main_v46) :=
    (Pipeline.withArrays_arr spec0 launch0.win.arr_inj c _ _ 2).trans (final m c)
  have hbias : Pipeline.withArrays (cfgs 0).spec c (V0 m c) (fun w => (dats m 0 c).arrAt w (cfgs 0).N) (Proc.devRef .tc main_arg4)
      = m ((c.tc : Thread nD τ).loc main_arg4) :=
    (Pipeline.withArrays_of_ne _ c (V0 m c) _ main_arg4 (by exact (by decide : ∀ w, Pipeline.arrRef spec0 w ≠ main_arg4))).trans (V_main_arg4 m c)
  rw [hout, hbias]
  funext j
  show rowScore (V m c main_v39) (V m c main_v46) j
      + (broadcastInDim S16384 ![] bcast_S_S16384 (shapeCast S_ (m ((c.tc : Thread nD τ).loc main_arg4)) shapeCasts_S1_S_) : Vec Ideal S16384 .f32) j = _
  rw [bias_apply]
  rfl

/-- The kernel's run: the result array ends at the score of every row — pairwise-interaction term plus linear term, then
    the bias — of the embeddings and weights as the region finds them, and the arguments end as launched. -/
theorem run : θ_run (defs (F := Ideal)) (onTc (τ := τ) (main (F := Ideal))) ⟨m, fun _ => 0, ρ⟩ (fun r => ∀ c : Dev nD,
      r.2.mem ((c.tc : Thread nD τ).loc main_v50) = score (V m c main_v39) (V m c main_v46) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(((h c).2 main_v50 (Pipeline.mem_restRefs_of main_v50 (by decide) (by decide))).trans (tail_eq m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.KernelRun

end
-- ==== Proof.Bridge.lean ====
/-
  The two programs' results are one function of the arguments.

  The kernel's result at row `b` is (pairwise term + linear term) + bias over the field-major embedding array and the
  looked-up weights; the reference's is (linear term + bias) + pairwise term over its row-major embedding array and the
  same looked-up weights. The two embedding arrays hold the same lookup chain at `(f, b, d)` and `(b, f, d)`, the weights
  are looked up by the same lines, and the two orders of addition agree on the extended reals.
-/
import proofs.«167912_j40759239639136_2_alg».proof.Proof.KernelHostRead
import proofs.«167912_j40759239639136_2_alg».proof.Proof.RefHostRead
import proofs.«167912_j40759239639136_2_alg».proof.Proof.RefValue
import proofs.«167912_j40759239639136_2_alg».proof.Proof.KernelRun

noncomputable section

namespace Cert.Bridge

open Idealize.ShloMosaic Idealize.ShloMosaic.ValueIdx

/-- The embedding arrays agree entry by entry, field-major against row-major. -/
theorem emb_eq (x0 : (⟨Cert.KernelIdeal.S16384x39, .i32⟩ : BufTy).Contents (Elt Ideal))
    (x1 : (⟨Cert.KernelIdeal.S9984x128, .f32⟩ : BufTy).Contents (Elt Ideal))
    (x2 : (⟨Cert.KernelIdeal.S3900000x8, .i32⟩ : BufTy).Contents (Elt Ideal)) (f : Fin 39) (b : Fin 16384) (d : Fin 128) :
    Cert.KernelIdeal.HostValue.emb (F := Ideal) x0 x1 x2 (ix3 f b d)
      = Cert.ReferenceIdeal.Read.val_main_v37 (F := Ideal) x0 x1 x2 (ix3 b f d) := by
  rw [Cert.KernelIdeal.HostRead.emb_apply, Cert.ReferenceIdeal.HostRead.emb_apply]
  rfl

/-- The kernel's result is the reference's, as functions of the arguments. -/
theorem score_eq (x0 : (⟨Cert.KernelIdeal.S16384x39, .i32⟩ : BufTy).Contents (Elt Ideal))
    (x1 : (⟨Cert.KernelIdeal.S9984x128, .f32⟩ : BufTy).Contents (Elt Ideal))
    (x2 : (⟨Cert.KernelIdeal.S3900000x8, .i32⟩ : BufTy).Contents (Elt Ideal))
    (x3 : (⟨Cert.KernelIdeal.S3900000, .f32⟩ : BufTy).Contents (Elt Ideal))
    (x4 : (⟨Cert.KernelIdeal.S1, .f32⟩ : BufTy).Contents (Elt Ideal)) :
    Cert.KernelIdeal.KernelRun.score (Cert.KernelIdeal.HostValue.emb (F := Ideal) x0 x1 x2)
        (Cert.KernelIdeal.HostValue.lin (F := Ideal) x0 x3) x4
      = Cert.ReferenceIdeal.Read.val_main_v57 (F := Ideal) x0 x1 x2 x3 x4 := by
  funext j
  obtain ⟨b, rfl⟩ : ∃ b : Fin 16384, j = ix1 b := ⟨j 0, eq_ix1 j⟩
  rw [Cert.ReferenceIdeal.RefValue.ref_apply]
  unfold Cert.KernelIdeal.KernelRun.score
  rw [Cert.FmSpec.total_comm]
  have hE : (fun (f : Fin 39) (d : Fin 128) => Cert.KernelIdeal.HostValue.emb (F := Ideal) x0 x1 x2 (ix3 f ((ix1 b : (⟨1, ![16384]⟩ : Shape).Idx) 0) d))
      = fun (f : Fin 39) (d : Fin 128) => Cert.ReferenceIdeal.Read.val_main_v37 (F := Ideal) x0 x1 x2 (ix3 b f d) :=
    funext fun f => funext fun d => emb_eq x0 x1 x2 f b d
  rw [hE]
  rfl

end Cert.Bridge

end
-- ==== Proof.lean ====
/-
  A factorization-machine score over product-quantized embeddings: the kernel against its jnp reference, on the extended reals.

  Both programs turn the feature ids `x : [16384, 39]` into flat ids (`+ 100000·field`), look up each flat id's 8 codes in
  the index table, move each code into its field's block of the codebook table (`+ 256·field`) and read the 16 numbers of
  sub-vector `m` of that codebook row: 128 numbers per (row, field), the embedding. The kernel lays the embeddings
  field-major, `[39, 16384, 128]` (narrowed to bf16, which changes nothing on the extended reals), and per tile of 1024
  rows accumulates, field by field from zero, the sum `s` and the sum of squares `sq` of the 39 embeddings of a row, then
  writes `½·Σ_d (s_d² − sq_d) + Σ_f w` with `w` the looked-up linear weights; the host adds the bias. The reference lays
  the embeddings row-major, `[16384, 39, 128]`, and computes `(Σ_f w + bias) + ½·Σ_d ((Σ_f e)_d² − (Σ_f e²)_d)` with whole
  sums.

  * the two embedding arrays hold the same lookup chain at `(f, b, d)` and `(b, f, d)` (`EmbSpec.embAt`; KernelHostRead,
    RefHostRead): the transpose only moves the id word, everything after it acts entry by entry;
  * a sum accumulated field by field from zero is the sum over the fields, and a lane sum is a sum over the lanes
    (BodyValue, RefValue);
  * every tile writes the rows it owns and the 16 tiles cover the rows (KernelRun);
  * (p + l) + b = (l + b) + p on the extended reals (`FmSpec.total_comm`): commutativity and associativity only, so
    the inputs' finiteness is never used.
  The frames are the generated ones; the idealization rewrote nothing, so `preserves` is trivial.
-/
import proofs.«167912_j40759239639136_2_alg».proof.Defs
import proofs.«167912_j40759239639136_2_alg».proof.Proof.Gen.Kernel
import proofs.«167912_j40759239639136_2_alg».proof.Proof.Gen.Kernel.Skeleton
import proofs.«167912_j40759239639136_2_alg».proof.Proof.Gen.Kernel.Launch
import proofs.«167912_j40759239639136_2_alg».proof.Proof.Gen.Kernel.Points
import proofs.«167912_j40759239639136_2_alg».proof.Proof.Gen.Kernel.Frame
import proofs.«167912_j40759239639136_2_alg».proof.Proof.Gen.KernelIdeal
import proofs.«167912_j40759239639136_2_alg».proof.Proof.Gen.KernelIdeal.Skeleton
import proofs.«167912_j40759239639136_2_alg».proof.Proof.Gen.KernelIdeal.Launch
import proofs.«167912_j40759239639136_2_alg».proof.Proof.Gen.KernelIdeal.Points
import proofs.«167912_j40759239639136_2_alg».proof.Proof.Gen.KernelIdeal.Frame
import proofs.«167912_j40759239639136_2_alg».proof.Proof.Gen.ReferenceIdeal
import proofs.«167912_j40759239639136_2_alg».proof.Proof.Gen.Pre_finite_inputs
import proofs.«167912_j40759239639136_2_alg».proof.Proof.Gen.ReferenceIdeal.Run
import proofs.«167912_j40759239639136_2_alg».proof.Proof.Gen.ReferenceIdeal.Read
import proofs.«167912_j40759239639136_2_alg».proof.Proof.Bridge
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the same scores: the kernel's run names its result as
    the score over its two staged arrays, those arrays are the host lines' lookups of the arguments, and that score is the
    reference's composed term. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v57_eq, (hagree c).1, (hagree c).2.1, (hagree c).2.2.1, (hagree c).2.2.2.1,
    (hagree c).2.2.2.2, Cert.KernelIdeal.HostValue.V_emb, Cert.KernelIdeal.HostValue.V_lin]
  exact (Cert.Bridge.score_eq _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
